-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v323)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v323) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v329) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S3x2x2000000 : Shape := ⟨3, ![3, 2, 2000000]⟩
abbrev S200000x32 : Shape := ⟨2, ![200000, 32]⟩
abbrev S300000x32 : Shape := ⟨2, ![300000, 32]⟩
abbrev S60000x32 : Shape := ⟨2, ![60000, 32]⟩
abbrev S90000x32 : Shape := ⟨2, ![90000, 32]⟩
abbrev S60000 : Shape := ⟨1, ![60000]⟩
abbrev S90000 : Shape := ⟨1, ![90000]⟩
abbrev S8192 : Shape := ⟨1, ![8192]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S300000x32 : S_.BroadcastsInDim S300000x32 (![] : Fin 0 → Fin S300000x32.rank)
  reducesTo_S300000x32_S_d0_1 : S300000x32.ReducesTo [0, 1] S_
  bcast_S_S60000x32 : S_.BroadcastsInDim S60000x32 (![] : Fin 0 → Fin S60000x32.rank)
  reducesTo_S60000x32_S_d0_1 : S60000x32.ReducesTo [0, 1] S_
  bcast_S_S90000x32 : S_.BroadcastsInDim S90000x32 (![] : Fin 0 → Fin S90000x32.rank)
  reducesTo_S90000x32_S_d0_1 : S90000x32.ReducesTo [0, 1] S_

variable [Facts]

def fn_part1 {F : FTy → Type} [FloatOps F] (main_v13 : IVec S_ 1) (main_v16 : IVec S90000x32 1) : IVec S_ 1 :=
  let main_c_5 : IVec S_ 1 := constantI S_ 1 1#1
  let main_v17 : IVec S_ 1 := (fun x v => Host.reduce IntOp.andi x v reducesTo_S90000x32_S_d0_1 h_S_) main_v16 main_c_5
  let main_v18 : IVec S_ 1 := andi main_v13 main_v17
  main_v18

def fn {F : FTy → Type} [FloatOps F] (main_arg0 : IVec S2x2000000 32) (main_arg1 : IVec S3x2x2000000 32) (main_arg2 : FVec F S200000x32 .f32) (main_arg3 : FVec F S300000x32 .f32) (main_arg4 : FVec F S60000x32 .f32) (main_arg5 : FVec F S90000x32 .f32) (main_arg6 : IVec S60000 32) (main_arg7 : IVec S90000 32) (main_arg8 : IVec S8192 32) (main_arg9 : IVec S8192 32) : IVec S_ 1 :=
  let main_v0 : FVec F S200000x32 .f32 := Host.absf main_arg2
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S300000x32 .f32 := Host.absf main_arg3
  let main_cst_0 : FVec F S_ .f32 := constant S_ .f32 0x7F800000#32
  let main_v5 : FVec F S300000x32 .f32 := broadcastInDim S300000x32 ![] bcast_S_S300000x32 main_cst_0
  let main_v6 : IVec S300000x32 1 := cmpf .olt main_v4 main_v5
  let main_c_1 : IVec S_ 1 := constantI S_ 1 1#1
  let main_v7 : IVec S_ 1 := (fun x v => Host.reduce IntOp.andi x v reducesTo_S300000x32_S_d0_1 h_S_) main_v6 main_c_1
  let main_v8 : IVec S_ 1 := andi main_v3 main_v7
  let main_v9 : FVec F S60000x32 .f32 := Host.absf main_arg4
  let main_cst_2 : FVec F S_ .f32 := constant S_ .f32 0x7F800000#32
  let main_v10 : FVec F S60000x32 .f32 := broadcastInDim S60000x32 ![] bcast_S_S60000x32 main_cst_2
  let main_v11 : IVec S60000x32 1 := cmpf .olt main_v9 main_v10
  let main_c_3 : IVec S_ 1 := constantI S_ 1 1#1
  let main_v12 : IVec S_ 1 := (fun x v => Host.reduce IntOp.andi x v reducesTo_S60000x32_S_d0_1 h_S_) main_v11 main_c_3
  let main_v13 : IVec S_ 1 := andi main_v8 main_v12
  let main_v14 : FVec F S90000x32 .f32 := Host.absf main_arg5
  let main_cst_4 : FVec F S_ .f32 := constant S_ .f32 0x7F800000#32
  let main_v15 : FVec F S90000x32 .f32 := broadcastInDim S90000x32 ![] bcast_S_S90000x32 main_cst_4
  let main_v16 : IVec S90000x32 1 := cmpf .olt main_v14 main_v15
  fn_part1 (F := F) main_v13 main_v16
-- ==== Kernel.lean ====
abbrev S2x2000000 : Shape := ⟨2, ![2, 2000000]⟩
abbrev S3x2x2000000 : Shape := ⟨3, ![3, 2, 2000000]⟩
abbrev S200000x32 : Shape := ⟨2, ![200000, 32]⟩
abbrev S300000x32 : Shape := ⟨2, ![300000, 32]⟩
abbrev S60000x32 : Shape := ⟨2, ![60000, 32]⟩
abbrev S90000x32 : Shape := ⟨2, ![90000, 32]⟩
abbrev S60000 : Shape := ⟨1, ![60000]⟩
abbrev S90000 : Shape := ⟨1, ![90000]⟩
abbrev S8192 : Shape := ⟨1, ![8192]⟩
abbrev S150000x32 : Shape := ⟨2, ![150000, 32]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S2000000x32 : Shape := ⟨2, ![2000000, 32]⟩
abbrev S500000x32 : Shape := ⟨2, ![500000, 32]⟩
abbrev S1x1x2000000 : Shape := ⟨3, ![1, 1, 2000000]⟩
abbrev S500000 : Shape := ⟨1, ![500000]⟩
abbrev S60000x1 : Shape := ⟨2, ![60000, 1]⟩
abbrev S90000x1 : Shape := ⟨2, ![90000, 1]⟩
abbrev S3000x32 : Shape := ⟨2, ![3000, 32]⟩
abbrev S60000x64 : Shape := ⟨2, ![60000, 64]⟩
abbrev S90000x64 : Shape := ⟨2, ![90000, 64]⟩
abbrev S8192x1 : Shape := ⟨2, ![8192, 1]⟩
abbrev S8192x64 : Shape := ⟨2, ![8192, 64]⟩
abbrev S1024x64 : Shape := ⟨2, ![1024, 64]⟩
abbrev S1024x1 : Shape := ⟨2, ![1024, 1]⟩
abbrev S1024 : Shape := ⟨1, ![1024]⟩

abbrev nBuf : Space → Nat
  | .hbm => 418
  | .vmem => 14
  | .smem => 0
  | _ => 0

abbrev hbmTy0_0 (i : Nat) : BufTy := match i % 128 with
  | 0 => ⟨S2x2000000, .i32⟩
  | 1 => ⟨S3x2x2000000, .i32⟩
  | 2 => ⟨S200000x32, .f32⟩
  | 3 => ⟨S300000x32, .f32⟩
  | 4 => ⟨S60000x32, .f32⟩
  | 5 => ⟨S90000x32, .f32⟩
  | 6 => ⟨S60000, .i32⟩
  | 7 => ⟨S90000, .i32⟩
  | 8 => ⟨S8192, .i32⟩
  | 9 => ⟨S8192, .i32⟩
  | 10 => ⟨S150000x32, .f32⟩
  | 11 => ⟨S1x2000000, .i32⟩
  | 12 => ⟨S2000000, .i32⟩
  | 13 => ⟨S1x2000000, .i32⟩
  | 14 => ⟨S2000000, .i32⟩
  | 15 => ⟨S_, .f32⟩
  | 16 => ⟨S2000000, .f32⟩
  | 17 => ⟨S_, .f32⟩
  | 18 => ⟨S150000, .f32⟩
  | 19 => ⟨S2000000x1, .i32⟩
  | 20 => ⟨S150000, .f32⟩
  | 21 => ⟨S_, .f32⟩
  | 22 => ⟨S150000, .f32⟩
  | 23 => ⟨S150000, .f32⟩
  | 24 => ⟨S150000, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2000000, .f32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000, .f32⟩
  | 43 => ⟨S2000000, .f32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S2000000x32, .f32⟩
  | 53 => ⟨S2000000x1, .f32⟩
  | 54 => ⟨S2000000x32, .f32⟩
  | 55 => ⟨S2000000x32, .f32⟩
  | 56 => ⟨S_, .f32⟩
  | 57 => ⟨S150000x32, .f32⟩
  | 58 => ⟨S2000000x1, .i32⟩
  | 59 => ⟨S150000x32, .f32⟩
  | 60 => ⟨S_, .f32⟩
  | 61 => ⟨S150000x32, .f32⟩
  | 62 => ⟨S150000x32, .f32⟩
  | 63 => ⟨S_, .f32⟩
  | 64 => ⟨S150000x32, .f32⟩
  | 65 => ⟨S150000x32, .f32⟩
  | 66 => ⟨S150000x32, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x32, .f32⟩
  | 76 => ⟨S2000000x1, .f32⟩
  | 77 => ⟨S2000000x32, .f32⟩
  | 78 => ⟨S2000000x32, .f32⟩
  | 79 => ⟨S_, .f32⟩
  | 80 => ⟨S150000x32, .f32⟩
  | 81 => ⟨S2000000x1, .i32⟩
  | 82 => ⟨S150000x32, .f32⟩
  | 83 => ⟨S_, .f32⟩
  | 84 => ⟨S150000x32, .f32⟩
  | 85 => ⟨S150000x32, .f32⟩
  | 86 => ⟨S_, .f32⟩
  | 87 => ⟨S150000x32, .f32⟩
  | 88 => ⟨S150000x32, .f32⟩
  | 89 => ⟨S150000x32, .f32⟩
  | 90 => ⟨S60000x32, .f32⟩
  | 91 => ⟨S90000x32, .f32⟩
  | 92 => ⟨S500000x32, .f32⟩
  | 93 => ⟨S1x1x2000000, .i32⟩
  | 94 => ⟨S2000000, .i32⟩
  | 95 => ⟨S1x1x2000000, .i32⟩
  | 96 => ⟨S2000000, .i32⟩
  | 97 => ⟨S_, .f32⟩
  | 98 => ⟨S2000000, .f32⟩
  | 99 => ⟨S_, .f32⟩
  | 100 => ⟨S500000, .f32⟩
  | 101 => ⟨S2000000x1, .i32⟩
  | 102 => ⟨S500000, .f32⟩
  | 103 => ⟨S_, .f32⟩
  | 104 => ⟨S500000, .f32⟩
  | 105 => ⟨S500000, .f32⟩
  | 106 => ⟨S500000, .f32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S2000000x1, .i32⟩
  | 115 => ⟨S2000000, .f32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S2000000, .f32⟩
  | 125 => ⟨S2000000, .f32⟩
  | 126 => ⟨S_, .i32⟩
  | 127 => ⟨S2000000, .i32⟩
  | _ => ⟨S2x2000000, .i32⟩

abbrev hbmTy0_1 (i : Nat) : BufTy := match i % 128 with
  | 0 => ⟨S2000000, .i1⟩
  | 1 => ⟨S_, .i32⟩
  | 2 => ⟨S2000000, .i32⟩
  | 3 => ⟨S2000000, .i32⟩
  | 4 => ⟨S2000000, .i32⟩
  | 5 => ⟨S2000000x1, .i32⟩
  | 6 => ⟨S2000000x32, .f32⟩
  | 7 => ⟨S2000000x1, .f32⟩
  | 8 => ⟨S2000000x32, .f32⟩
  | 9 => ⟨S2000000x32, .f32⟩
  | 10 => ⟨S_, .f32⟩
  | 11 => ⟨S500000x32, .f32⟩
  | 12 => ⟨S2000000x1, .i32⟩
  | 13 => ⟨S500000x32, .f32⟩
  | 14 => ⟨S_, .f32⟩
  | 15 => ⟨S500000x32, .f32⟩
  | 16 => ⟨S500000x32, .f32⟩
  | 17 => ⟨S_, .f32⟩
  | 18 => ⟨S500000x32, .f32⟩
  | 19 => ⟨S500000x32, .f32⟩
  | 20 => ⟨S500000x32, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000x32, .f32⟩
  | 30 => ⟨S2000000x1, .f32⟩
  | 31 => ⟨S2000000x32, .f32⟩
  | 32 => ⟨S2000000x32, .f32⟩
  | 33 => ⟨S_, .f32⟩
  | 34 => ⟨S500000x32, .f32⟩
  | 35 => ⟨S2000000x1, .i32⟩
  | 36 => ⟨S500000x32, .f32⟩
  | 37 => ⟨S_, .f32⟩
  | 38 => ⟨S500000x32, .f32⟩
  | 39 => ⟨S500000x32, .f32⟩
  | 40 => ⟨S_, .f32⟩
  | 41 => ⟨S500000x32, .f32⟩
  | 42 => ⟨S500000x32, .f32⟩
  | 43 => ⟨S500000x32, .f32⟩
  | 44 => ⟨S200000x32, .f32⟩
  | 45 => ⟨S_, .i32⟩
  | 46 => ⟨S60000, .i32⟩
  | 47 => ⟨S60000, .i1⟩
  | 48 => ⟨S_, .i32⟩
  | 49 => ⟨S60000, .i32⟩
  | 50 => ⟨S60000, .i32⟩
  | 51 => ⟨S60000, .i32⟩
  | 52 => ⟨S60000x1, .i32⟩
  | 53 => ⟨S60000x32, .f32⟩
  | 54 => ⟨S300000x32, .f32⟩
  | 55 => ⟨S_, .i32⟩
  | 56 => ⟨S90000, .i32⟩
  | 57 => ⟨S90000, .i1⟩
  | 58 => ⟨S_, .i32⟩
  | 59 => ⟨S90000, .i32⟩
  | 60 => ⟨S90000, .i32⟩
  | 61 => ⟨S90000, .i32⟩
  | 62 => ⟨S90000x1, .i32⟩
  | 63 => ⟨S90000x32, .f32⟩
  | 64 => ⟨S150000x32, .f32⟩
  | 65 => ⟨S1x1x2000000, .i32⟩
  | 66 => ⟨S2000000, .i32⟩
  | 67 => ⟨S1x1x2000000, .i32⟩
  | 68 => ⟨S2000000, .i32⟩
  | 69 => ⟨S_, .f32⟩
  | 70 => ⟨S2000000, .f32⟩
  | 71 => ⟨S_, .f32⟩
  | 72 => ⟨S500000, .f32⟩
  | 73 => ⟨S2000000x1, .i32⟩
  | 74 => ⟨S500000, .f32⟩
  | 75 => ⟨S_, .f32⟩
  | 76 => ⟨S500000, .f32⟩
  | 77 => ⟨S500000, .f32⟩
  | 78 => ⟨S500000, .f32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000, .f32⟩
  | 97 => ⟨S2000000, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x32, .f32⟩
  | 107 => ⟨S2000000x1, .f32⟩
  | 108 => ⟨S2000000x32, .f32⟩
  | 109 => ⟨S2000000x32, .f32⟩
  | 110 => ⟨S_, .f32⟩
  | 111 => ⟨S500000x32, .f32⟩
  | 112 => ⟨S2000000x1, .i32⟩
  | 113 => ⟨S500000x32, .f32⟩
  | 114 => ⟨S_, .f32⟩
  | 115 => ⟨S500000x32, .f32⟩
  | 116 => ⟨S500000x32, .f32⟩
  | 117 => ⟨S_, .f32⟩
  | 118 => ⟨S500000x32, .f32⟩
  | 119 => ⟨S500000x32, .f32⟩
  | 120 => ⟨S500000x32, .f32⟩
  | 121 => ⟨S_, .i32⟩
  | 122 => ⟨S2000000, .i32⟩
  | 123 => ⟨S2000000, .i1⟩
  | 124 => ⟨S_, .i32⟩
  | 125 => ⟨S2000000, .i32⟩
  | 126 => ⟨S2000000, .i32⟩
  | 127 => ⟨S2000000, .i32⟩
  | _ => ⟨S2x2000000, .i32⟩

abbrev hbmTy0_2 (i : Nat) : BufTy := match i % 128 with
  | 0 => ⟨S2000000x1, .i32⟩
  | 1 => ⟨S2000000x32, .f32⟩
  | 2 => ⟨S2000000x1, .f32⟩
  | 3 => ⟨S2000000x32, .f32⟩
  | 4 => ⟨S2000000x32, .f32⟩
  | 5 => ⟨S_, .f32⟩
  | 6 => ⟨S500000x32, .f32⟩
  | 7 => ⟨S2000000x1, .i32⟩
  | 8 => ⟨S500000x32, .f32⟩
  | 9 => ⟨S_, .f32⟩
  | 10 => ⟨S500000x32, .f32⟩
  | 11 => ⟨S500000x32, .f32⟩
  | 12 => ⟨S_, .f32⟩
  | 13 => ⟨S500000x32, .f32⟩
  | 14 => ⟨S500000x32, .f32⟩
  | 15 => ⟨S500000x32, .f32⟩
  | 16 => ⟨S200000x32, .f32⟩
  | 17 => ⟨S_, .i32⟩
  | 18 => ⟨S60000, .i32⟩
  | 19 => ⟨S60000, .i1⟩
  | 20 => ⟨S_, .i32⟩
  | 21 => ⟨S60000, .i32⟩
  | 22 => ⟨S60000, .i32⟩
  | 23 => ⟨S60000, .i32⟩
  | 24 => ⟨S60000x1, .i32⟩
  | 25 => ⟨S60000x32, .f32⟩
  | 26 => ⟨S300000x32, .f32⟩
  | 27 => ⟨S_, .i32⟩
  | 28 => ⟨S90000, .i32⟩
  | 29 => ⟨S90000, .i1⟩
  | 30 => ⟨S_, .i32⟩
  | 31 => ⟨S90000, .i32⟩
  | 32 => ⟨S90000, .i32⟩
  | 33 => ⟨S90000, .i32⟩
  | 34 => ⟨S90000x1, .i32⟩
  | 35 => ⟨S90000x32, .f32⟩
  | 36 => ⟨S150000x32, .f32⟩
  | 37 => ⟨S1x1x2000000, .i32⟩
  | 38 => ⟨S2000000, .i32⟩
  | 39 => ⟨S1x1x2000000, .i32⟩
  | 40 => ⟨S2000000, .i32⟩
  | 41 => ⟨S_, .f32⟩
  | 42 => ⟨S2000000, .f32⟩
  | 43 => ⟨S_, .f32⟩
  | 44 => ⟨S500000, .f32⟩
  | 45 => ⟨S2000000x1, .i32⟩
  | 46 => ⟨S500000, .f32⟩
  | 47 => ⟨S_, .f32⟩
  | 48 => ⟨S500000, .f32⟩
  | 49 => ⟨S500000, .f32⟩
  | 50 => ⟨S500000, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000, .f32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S2000000, .f32⟩
  | 69 => ⟨S2000000, .f32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x32, .f32⟩
  | 79 => ⟨S2000000x1, .f32⟩
  | 80 => ⟨S2000000x32, .f32⟩
  | 81 => ⟨S2000000x32, .f32⟩
  | 82 => ⟨S_, .f32⟩
  | 83 => ⟨S500000x32, .f32⟩
  | 84 => ⟨S2000000x1, .i32⟩
  | 85 => ⟨S500000x32, .f32⟩
  | 86 => ⟨S_, .f32⟩
  | 87 => ⟨S500000x32, .f32⟩
  | 88 => ⟨S500000x32, .f32⟩
  | 89 => ⟨S_, .f32⟩
  | 90 => ⟨S500000x32, .f32⟩
  | 91 => ⟨S500000x32, .f32⟩
  | 92 => ⟨S500000x32, .f32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i32⟩
  | 99 => ⟨S2000000, .i32⟩
  | 100 => ⟨S2000000x1, .i32⟩
  | 101 => ⟨S2000000x32, .f32⟩
  | 102 => ⟨S2000000x1, .f32⟩
  | 103 => ⟨S2000000x32, .f32⟩
  | 104 => ⟨S2000000x32, .f32⟩
  | 105 => ⟨S_, .f32⟩
  | 106 => ⟨S500000x32, .f32⟩
  | 107 => ⟨S2000000x1, .i32⟩
  | 108 => ⟨S500000x32, .f32⟩
  | 109 => ⟨S_, .f32⟩
  | 110 => ⟨S500000x32, .f32⟩
  | 111 => ⟨S500000x32, .f32⟩
  | 112 => ⟨S_, .f32⟩
  | 113 => ⟨S500000x32, .f32⟩
  | 114 => ⟨S500000x32, .f32⟩
  | 115 => ⟨S500000x32, .f32⟩
  | 116 => ⟨S200000x32, .f32⟩
  | 117 => ⟨S_, .i32⟩
  | 118 => ⟨S60000, .i32⟩
  | 119 => ⟨S60000, .i1⟩
  | 120 => ⟨S_, .i32⟩
  | 121 => ⟨S60000, .i32⟩
  | 122 => ⟨S60000, .i32⟩
  | 123 => ⟨S60000, .i32⟩
  | 124 => ⟨S60000x1, .i32⟩
  | 125 => ⟨S60000x32, .f32⟩
  | 126 => ⟨S300000x32, .f32⟩
  | 127 => ⟨S_, .i32⟩
  | _ => ⟨S2x2000000, .i32⟩

abbrev hbmTy0_3 (i : Nat) : BufTy := match i % 128 with
  | 0 => ⟨S90000, .i32⟩
  | 1 => ⟨S90000, .i1⟩
  | 2 => ⟨S_, .i32⟩
  | 3 => ⟨S90000, .i32⟩
  | 4 => ⟨S90000, .i32⟩
  | 5 => ⟨S90000, .i32⟩
  | 6 => ⟨S90000x1, .i32⟩
  | 7 => ⟨S90000x32, .f32⟩
  | 8 => ⟨S150000x32, .f32⟩
  | 9 => ⟨S150000x32, .f32⟩
  | 10 => ⟨S60000x32, .f32⟩
  | 11 => ⟨S90000x32, .f32⟩
  | 12 => ⟨S60000x64, .f32⟩
  | 13 => ⟨S90000x64, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x64, .f32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x64, .f32⟩
  | 32 => ⟨S8192x1, .f32⟩
  | 33 => ⟨S8192, .f32⟩
  | _ => ⟨S2x2000000, .i32⟩

abbrev hbmTy (i : Nat) : BufTy := match i / 128 with
  | 0 => hbmTy0_0 i
  | 1 => hbmTy0_1 i
  | 2 => hbmTy0_2 i
  | 3 => hbmTy0_3 i
  | _ => ⟨S2x2000000, .i32⟩

abbrev bufTy : (tb : Table) → Fin (tcTables nBuf tb) → BufTy
  | .hbm, ⟨i, _⟩ => hbmTy i
  | .local _ .vmem, ⟨0, _⟩ => ⟨S3000x32, .f32⟩
  | .local _ .vmem, ⟨1, _⟩ => ⟨S3000x32, .f32⟩
  | .local _ .vmem, ⟨2, _⟩ => ⟨S3000x32, .f32⟩
  | .local _ .vmem, ⟨3, _⟩ => ⟨S3000x32, .f32⟩
  | .local _ .vmem, ⟨4, _⟩ => ⟨S3000x32, .f32⟩
  | .local _ .vmem, ⟨5, _⟩ => ⟨S3000x32, .f32⟩
  | .local _ .vmem, ⟨6, _⟩ => ⟨S3000x32, .f32⟩
  | .local _ .vmem, ⟨7, _⟩ => ⟨S3000x32, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x1, .f32⟩
  | .local _ .vmem, ⟨13, _⟩ => ⟨S1024x1, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_c_21 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_c_23 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_27 : Ref sig .tc := ⟨.hbm, 149, rfl⟩
abbrev main_v110 : Ref sig .tc := ⟨.hbm, 150, rfl⟩
abbrev main_v111 : Ref sig .tc := ⟨.hbm, 151, rfl⟩
abbrev main_c_28 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_29 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_30 : Ref sig .tc := ⟨.hbm, 165, rfl⟩
abbrev main_v123 : Ref sig .tc := ⟨.hbm, 166, rfl⟩
abbrev main_v124 : Ref sig .tc := ⟨.hbm, 167, rfl⟩
abbrev main_cst_31 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_c_32 : Ref sig .tc := ⟨.hbm, 173, rfl⟩
abbrev main_v129 : Ref sig .tc := ⟨.hbm, 174, rfl⟩
abbrev main_v130 : Ref sig .tc := ⟨.hbm, 175, rfl⟩
abbrev main_c_33 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_34 : Ref sig .tc := ⟨.hbm, 183, rfl⟩
abbrev main_v137 : Ref sig .tc := ⟨.hbm, 184, rfl⟩
abbrev main_v138 : Ref sig .tc := ⟨.hbm, 185, rfl⟩
abbrev main_c_35 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_36 : Ref sig .tc := ⟨.hbm, 197, rfl⟩
abbrev main_v149 : Ref sig .tc := ⟨.hbm, 198, rfl⟩
abbrev main_cst_37 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_38 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_39 : Ref sig .tc := ⟨.hbm, 207, rfl⟩
abbrev main_v156 : Ref sig .tc := ⟨.hbm, 208, rfl⟩
abbrev main_v157 : Ref sig .tc := ⟨.hbm, 209, rfl⟩
abbrev main_c_40 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_c_41 : Ref sig .tc := ⟨.hbm, 216, rfl⟩
abbrev main_v163 : Ref sig .tc := ⟨.hbm, 217, rfl⟩
abbrev main_v164 : Ref sig .tc := ⟨.hbm, 218, rfl⟩
abbrev main_c_42 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_43 : Ref sig .tc := ⟨.hbm, 226, rfl⟩
abbrev main_v171 : Ref sig .tc := ⟨.hbm, 227, rfl⟩
abbrev main_v172 : Ref sig .tc := ⟨.hbm, 228, rfl⟩
abbrev main_c_44 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_45 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_46 : Ref sig .tc := ⟨.hbm, 242, rfl⟩
abbrev main_v184 : Ref sig .tc := ⟨.hbm, 243, rfl⟩
abbrev main_v185 : Ref sig .tc := ⟨.hbm, 244, rfl⟩
abbrev main_cst_47 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_c_48 : Ref sig .tc := ⟨.hbm, 249, rfl⟩
abbrev main_v189 : Ref sig .tc := ⟨.hbm, 250, rfl⟩
abbrev main_v190 : Ref sig .tc := ⟨.hbm, 251, rfl⟩
abbrev main_c_49 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_cst_50 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_cst_51 : Ref sig .tc := ⟨.hbm, 265, rfl⟩
abbrev main_v202 : Ref sig .tc := ⟨.hbm, 266, rfl⟩
abbrev main_v203 : Ref sig .tc := ⟨.hbm, 267, rfl⟩
abbrev main_cst_52 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_c_53 : Ref sig .tc := ⟨.hbm, 273, rfl⟩
abbrev main_v208 : Ref sig .tc := ⟨.hbm, 274, rfl⟩
abbrev main_v209 : Ref sig .tc := ⟨.hbm, 275, rfl⟩
abbrev main_c_54 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_c_55 : Ref sig .tc := ⟨.hbm, 283, rfl⟩
abbrev main_v216 : Ref sig .tc := ⟨.hbm, 284, rfl⟩
abbrev main_v217 : Ref sig .tc := ⟨.hbm, 285, rfl⟩
abbrev main_c_56 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_cst_57 : Ref sig .tc := ⟨.hbm, 297, rfl⟩
abbrev main_v228 : Ref sig .tc := ⟨.hbm, 298, rfl⟩
abbrev main_cst_58 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_cst_59 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_c_60 : Ref sig .tc := ⟨.hbm, 307, rfl⟩
abbrev main_v235 : Ref sig .tc := ⟨.hbm, 308, rfl⟩
abbrev main_v236 : Ref sig .tc := ⟨.hbm, 309, rfl⟩
abbrev main_c_61 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_c_62 : Ref sig .tc := ⟨.hbm, 316, rfl⟩
abbrev main_v242 : Ref sig .tc := ⟨.hbm, 317, rfl⟩
abbrev main_v243 : Ref sig .tc := ⟨.hbm, 318, rfl⟩
abbrev main_c_63 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_c_64 : Ref sig .tc := ⟨.hbm, 326, rfl⟩
abbrev main_v250 : Ref sig .tc := ⟨.hbm, 327, rfl⟩
abbrev main_v251 : Ref sig .tc := ⟨.hbm, 328, rfl⟩
abbrev main_c_65 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_cst_66 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_cst_67 : Ref sig .tc := ⟨.hbm, 342, rfl⟩
abbrev main_v263 : Ref sig .tc := ⟨.hbm, 343, rfl⟩
abbrev main_v264 : Ref sig .tc := ⟨.hbm, 344, rfl⟩
abbrev main_cst_68 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_c_69 : Ref sig .tc := ⟨.hbm, 349, rfl⟩
abbrev main_v268 : Ref sig .tc := ⟨.hbm, 350, rfl⟩
abbrev main_v269 : Ref sig .tc := ⟨.hbm, 351, rfl⟩
abbrev main_c_70 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_cst_71 : Ref sig .tc := ⟨.hbm, 361, rfl⟩
abbrev main_v278 : Ref sig .tc := ⟨.hbm, 362, rfl⟩
abbrev main_v279 : Ref sig .tc := ⟨.hbm, 363, rfl⟩
abbrev main_v280 : Ref sig .tc := ⟨.hbm, 364, rfl⟩
abbrev main_cst_72 : Ref sig .tc := ⟨.hbm, 365, rfl⟩
abbrev main_v281 : Ref sig .tc := ⟨.hbm, 366, rfl⟩
abbrev main_v282 : Ref sig .tc := ⟨.hbm, 367, rfl⟩
abbrev main_cst_73 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_c_74 : Ref sig .tc := ⟨.hbm, 373, rfl⟩
abbrev main_v287 : Ref sig .tc := ⟨.hbm, 374, rfl⟩
abbrev main_v288 : Ref sig .tc := ⟨.hbm, 375, rfl⟩
abbrev main_c_75 : Ref sig .tc := ⟨.hbm, 376, rfl⟩
abbrev main_v289 : Ref sig .tc := ⟨.hbm, 377, rfl⟩
abbrev main_v290 : Ref sig .tc := ⟨.hbm, 378, rfl⟩
abbrev main_v291 : Ref sig .tc := ⟨.hbm, 379, rfl⟩
abbrev main_v292 : Ref sig .tc := ⟨.hbm, 380, rfl⟩
abbrev main_v293 : Ref sig .tc := ⟨.hbm, 381, rfl⟩
abbrev main_v294 : Ref sig .tc := ⟨.hbm, 382, rfl⟩
abbrev main_c_76 : Ref sig .tc := ⟨.hbm, 383, rfl⟩
abbrev main_v295 : Ref sig .tc := ⟨.hbm, 384, rfl⟩
abbrev main_v296 : Ref sig .tc := ⟨.hbm, 385, rfl⟩
abbrev main_c_77 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_c_78 : Ref sig .tc := ⟨.hbm, 398, rfl⟩
abbrev main_v308 : Ref sig .tc := ⟨.hbm, 399, rfl⟩
abbrev main_v309 : Ref sig .tc := ⟨.hbm, 400, rfl⟩
abbrev main_c_79 : Ref sig .tc := ⟨.hbm, 401, rfl⟩
abbrev main_v310 : Ref sig .tc := ⟨.hbm, 402, rfl⟩
abbrev main_v311 : Ref sig .tc := ⟨.hbm, 403, rfl⟩
abbrev main_v312 : Ref sig .tc := ⟨.hbm, 404, rfl⟩
abbrev main_v313 : Ref sig .tc := ⟨.hbm, 405, rfl⟩
abbrev main_v314 : Ref sig .tc := ⟨.hbm, 406, rfl⟩
abbrev main_c_80 : Ref sig .tc := ⟨.hbm, 407, rfl⟩
abbrev main_v315 : Ref sig .tc := ⟨.hbm, 408, rfl⟩
abbrev main_v316 : Ref sig .tc := ⟨.hbm, 409, rfl⟩
abbrev main_c_81 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S60000x32_S90000x32_S150000x32_d0 : Shape.Concatenates [S60000x32, S90000x32] S150000x32 0
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S2000000x1_S2000000x32_0_1 : S2000000x1.BroadcastsInDim S2000000x32 (![0, 1] : Fin 2 → Fin S2000000x32.rank)
  bcast_S_S150000x32 : S_.BroadcastsInDim S150000x32 (![] : Fin 0 → Fin S150000x32.rank)
  slices_S150000x32_S60000x32_0_0 : S150000x32.Slices ![0, 0] S60000x32
  slices_S150000x32_S90000x32_60000_0 : S150000x32.Slices ![60000, 0] S90000x32
  concatenates_S200000x32_S300000x32_S500000x32_d0 : Shape.Concatenates [S200000x32, S300000x32] S500000x32 0
  slices_S3x2x2000000_S1x1x2000000_0_0_0 : S3x2x2000000.Slices ![0, 0, 0] S1x1x2000000
  shapeCasts_S1x1x2000000_S2000000 : S1x1x2000000.ShapeCasts S2000000
  slices_S3x2x2000000_S1x1x2000000_0_1_0 : S3x2x2000000.Slices ![0, 1, 0] S1x1x2000000
  bcast_S_S500000 : S_.BroadcastsInDim S500000 (![] : Fin 0 → Fin S500000.rank)
  bcast_S_S500000x32 : S_.BroadcastsInDim S500000x32 (![] : Fin 0 → Fin S500000x32.rank)
  slices_S500000x32_S200000x32_0_0 : S500000x32.Slices ![0, 0] S200000x32
  bcast_S_S60000 : S_.BroadcastsInDim S60000 (![] : Fin 0 → Fin S60000.rank)
  bcast_S60000_S60000x1_0 : S60000.BroadcastsInDim S60000x1 (![0] : Fin 1 → Fin S60000x1.rank)
  slices_S500000x32_S300000x32_200000_0 : S500000x32.Slices ![200000, 0] S300000x32
  bcast_S_S90000 : S_.BroadcastsInDim S90000 (![] : Fin 0 → Fin S90000.rank)
  bcast_S90000_S90000x1_0 : S90000.BroadcastsInDim S90000x1 (![0] : Fin 1 → Fin S90000x1.rank)
  slices_S3x2x2000000_S1x1x2000000_1_0_0 : S3x2x2000000.Slices ![1, 0, 0] S1x1x2000000
  slices_S3x2x2000000_S1x1x2000000_1_1_0 : S3x2x2000000.Slices ![1, 1, 0] S1x1x2000000
  slices_S3x2x2000000_S1x1x2000000_2_0_0 : S3x2x2000000.Slices ![2, 0, 0] S1x1x2000000
  slices_S3x2x2000000_S1x1x2000000_2_1_0 : S3x2x2000000.Slices ![2, 1, 0] S1x1x2000000
  inb_S3000x32_S3000x32_0_0 : ∀ a, (![0, 0] : Fin 2 → Nat) a + S3000x32.size a ≤ S3000x32.size a
  h_S3000x32 : 0 < S3000x32.numel
  shapeCasts_S3000x32_S3000x32 : S3000x32.ShapeCasts S3000x32
  concatenates_S60000x32_S60000x32_S60000x64_d1 : Shape.Concatenates [S60000x32, S60000x32] S60000x64 1
  concatenates_S90000x32_S90000x32_S90000x64_d1 : Shape.Concatenates [S90000x32, S90000x32] S90000x64 1
  bcast_S_S8192 : S_.BroadcastsInDim S8192 (![] : Fin 0 → Fin S8192.rank)
  bcast_S8192_S8192x1_0 : S8192.BroadcastsInDim S8192x1 (![0] : Fin 1 → Fin S8192x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x32_S2000000x1_S2000000x32_1_0_n_n_0_1_132_wf : GatherDims.WF S150000x32 S2000000x1 S2000000x32 [1] [0] [] [0] [] 1 ![1, 32]
  scatter_S150000x32_S2000000x1_S2000000x32_1_0_0_1_wf : ScatterDims.WF S150000x32 S2000000x1 S2000000x32 [1] [0] [0] 1
  scatter_S500000_S2000000x1_S2000000_n_0_0_1_wf : ScatterDims.WF S500000 S2000000x1 S2000000 [] [0] [0] 1
  gather_S500000_S2000000x1_S2000000_n_0_n_n_0_1_1_wf : GatherDims.WF S500000 S2000000x1 S2000000 [] [0] [] [0] [] 1 ![1]
  gather_S500000x32_S2000000x1_S2000000x32_1_0_n_n_0_1_132_wf : GatherDims.WF S500000x32 S2000000x1 S2000000x32 [1] [0] [] [0] [] 1 ![1, 32]
  scatter_S500000x32_S2000000x1_S2000000x32_1_0_0_1_wf : ScatterDims.WF S500000x32 S2000000x1 S2000000x32 [1] [0] [0] 1
  gather_S200000x32_S60000x1_S60000x32_1_0_n_n_0_1_132_wf : GatherDims.WF S200000x32 S60000x1 S60000x32 [1] [0] [] [0] [] 1 ![1, 32]
  gather_S300000x32_S90000x1_S90000x32_1_0_n_n_0_1_132_wf : GatherDims.WF S300000x32 S90000x1 S90000x32 [1] [0] [] [0] [] 1 ![1, 32]
  gather_S60000x64_S8192x1_S8192x64_1_0_n_n_0_1_164_wf : GatherDims.WF S60000x64 S8192x1 S8192x64 [1] [0] [] [0] [] 1 ![1, 64]
  gather_S90000x64_S8192x1_S8192x64_1_0_n_n_0_1_164_wf : GatherDims.WF S90000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x32.size a ≤ S150000x32.size a
  hwx0_0 : ∀ i : grid0.Coords, EltTy.bits .f32 = 32 ∨ (Rect.block (s := S150000x32) S3000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x32.size a ≤ S150000x32.size a
  hwx0_1 : ∀ i : grid0.Coords, EltTy.bits .f32 = 32 ∨ (Rect.block (s := S150000x32) S3000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x32.size a ≤ S150000x32.size a
  hwx0_2 : ∀ i : grid0.Coords, EltTy.bits .f32 = 32 ∨ (Rect.block (s := S150000x32) S3000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x32.size a ≤ S150000x32.size a
  hwx0_3 : ∀ i : grid0.Coords, EltTy.bits .f32 = 32 ∨ (Rect.block (s := S150000x32) S3000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x32_S2000000x1_S2000000x32_1_0_n_n_0_1_132 : GatherDims S150000x32 S2000000x1 S2000000x32 where
  offsetDims := [1]
  collapsedSliceDims := [0]
  operandBatchingDims := []
  startIndicesBatchingDims := []
  startIndexMap := [0]
  indexVectorDim := 1
  sliceSizes := ![1, 32]
  wf := gather_S150000x32_S2000000x1_S2000000x32_1_0_n_n_0_1_132_wf
def scatter_S150000x32_S2000000x1_S2000000x32_1_0_0_1 : ScatterDims S150000x32 S2000000x1 S2000000x32 where
  updateWindowDims := [1]
  insertedWindowDims := [0]
  scatterDimsToOperandDims := [0]
  indexVectorDim := 1
  wf := scatter_S150000x32_S2000000x1_S2000000x32_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def gather_S200000x32_S60000x1_S60000x32_1_0_n_n_0_1_132 : GatherDims S200000x32 S60000x1 S60000x32 where
  offsetDims := [1]
  collapsedSliceDims := [0]
  operandBatchingDims := []
  startIndicesBatchingDims := []
  startIndexMap := [0]
  indexVectorDim := 1
  sliceSizes := ![1, 32]
  wf := gather_S200000x32_S60000x1_S60000x32_1_0_n_n_0_1_132_wf
def gather_S300000x32_S90000x1_S90000x32_1_0_n_n_0_1_132 : GatherDims S300000x32 S90000x1 S90000x32 where
  offsetDims := [1]
  collapsedSliceDims := [0]
  operandBatchingDims := []
  startIndicesBatchingDims := []
  startIndexMap := [0]
  indexVectorDim := 1
  sliceSizes := ![1, 32]
  wf := gather_S300000x32_S90000x1_S90000x32_1_0_n_n_0_1_132_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def gather_S90000x64_S8192x1_S8192x64_1_0_n_n_0_1_164 : GatherDims S90000x64 S8192x1 S8192x64 where
  offsetDims := [1]
  collapsedSliceDims := [0]
  operandBatchingDims := []
  startIndicesBatchingDims := []
  startIndexMap := [0]
  indexVectorDim := 1
  sliceSizes := ![1, 64]
  wf := gather_S90000x64_S8192x1_S8192x64_1_0_n_n_0_1_164_wf

abbrev win0_0 : Pipeline.Window sig grid0 :=
  Pipeline.Window.ofSpec (Memref.whole main_v144) S3000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v223) S3000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v302) S3000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v303) S3000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v314) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v321) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v322) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x2000000 : Shape := ⟨2, ![2, 2000000]⟩
abbrev S3x2x2000000 : Shape := ⟨3, ![3, 2, 2000000]⟩
abbrev S200000x32 : Shape := ⟨2, ![200000, 32]⟩
abbrev S300000x32 : Shape := ⟨2, ![300000, 32]⟩
abbrev S60000x32 : Shape := ⟨2, ![60000, 32]⟩
abbrev S90000x32 : Shape := ⟨2, ![90000, 32]⟩
abbrev S60000 : Shape := ⟨1, ![60000]⟩
abbrev S90000 : Shape := ⟨1, ![90000]⟩
abbrev S8192 : Shape := ⟨1, ![8192]⟩
abbrev S150000x32 : Shape := ⟨2, ![150000, 32]⟩
abbrev S1x2000000 : Shape := ⟨2, ![1, 2000000]⟩
abbrev S2000000 : Shape := ⟨1, ![2000000]⟩
abbrev S_ : Shape := ⟨0, ![]⟩
abbrev S150000 : Shape := ⟨1, ![150000]⟩
abbrev S2000000x1 : Shape := ⟨2, ![2000000, 1]⟩
abbrev S2000000x32 : Shape := ⟨2, ![2000000, 32]⟩
abbrev S500000x32 : Shape := ⟨2, ![500000, 32]⟩
abbrev S1x1x2000000 : Shape := ⟨3, ![1, 1, 2000000]⟩
abbrev S500000 : Shape := ⟨1, ![500000]⟩
abbrev S60000x1 : Shape := ⟨2, ![60000, 1]⟩
abbrev S90000x1 : Shape := ⟨2, ![90000, 1]⟩
abbrev S150000x1x32 : Shape := ⟨3, ![150000, 1, 32]⟩
abbrev S150000x3x32 : Shape := ⟨3, ![150000, 3, 32]⟩
abbrev S60000x64 : Shape := ⟨2, ![60000, 64]⟩
abbrev S90000x64 : Shape := ⟨2, ![90000, 64]⟩
abbrev S8192x1 : Shape := ⟨2, ![8192, 1]⟩
abbrev S8192x64 : Shape := ⟨2, ![8192, 64]⟩

abbrev nBuf : Space → Nat
  | .hbm => 427
  | .vmem => 0
  | .smem => 0
  | _ => 0

abbrev hbmTy0_0 (i : Nat) : BufTy := match i % 128 with
  | 0 => ⟨S2x2000000, .i32⟩
  | 1 => ⟨S3x2x2000000, .i32⟩
  | 2 => ⟨S200000x32, .f32⟩
  | 3 => ⟨S300000x32, .f32⟩
  | 4 => ⟨S60000x32, .f32⟩
  | 5 => ⟨S90000x32, .f32⟩
  | 6 => ⟨S60000, .i32⟩
  | 7 => ⟨S90000, .i32⟩
  | 8 => ⟨S8192, .i32⟩
  | 9 => ⟨S8192, .i32⟩
  | 10 => ⟨S150000x32, .f32⟩
  | 11 => ⟨S1x2000000, .i32⟩
  | 12 => ⟨S2000000, .i32⟩
  | 13 => ⟨S1x2000000, .i32⟩
  | 14 => ⟨S2000000, .i32⟩
  | 15 => ⟨S_, .f32⟩
  | 16 => ⟨S2000000, .f32⟩
  | 17 => ⟨S_, .f32⟩
  | 18 => ⟨S150000, .f32⟩
  | 19 => ⟨S2000000x1, .i32⟩
  | 20 => ⟨S150000, .f32⟩
  | 21 => ⟨S_, .f32⟩
  | 22 => ⟨S150000, .f32⟩
  | 23 => ⟨S150000, .f32⟩
  | 24 => ⟨S150000, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2000000, .f32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000, .f32⟩
  | 43 => ⟨S2000000, .f32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S2000000x32, .f32⟩
  | 53 => ⟨S2000000x1, .f32⟩
  | 54 => ⟨S2000000x32, .f32⟩
  | 55 => ⟨S2000000x32, .f32⟩
  | 56 => ⟨S_, .f32⟩
  | 57 => ⟨S150000x32, .f32⟩
  | 58 => ⟨S2000000x1, .i32⟩
  | 59 => ⟨S150000x32, .f32⟩
  | 60 => ⟨S_, .f32⟩
  | 61 => ⟨S150000x32, .f32⟩
  | 62 => ⟨S150000x32, .f32⟩
  | 63 => ⟨S_, .f32⟩
  | 64 => ⟨S150000x32, .f32⟩
  | 65 => ⟨S150000x32, .f32⟩
  | 66 => ⟨S150000x32, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x32, .f32⟩
  | 76 => ⟨S2000000x1, .f32⟩
  | 77 => ⟨S2000000x32, .f32⟩
  | 78 => ⟨S2000000x32, .f32⟩
  | 79 => ⟨S_, .f32⟩
  | 80 => ⟨S150000x32, .f32⟩
  | 81 => ⟨S2000000x1, .i32⟩
  | 82 => ⟨S150000x32, .f32⟩
  | 83 => ⟨S_, .f32⟩
  | 84 => ⟨S150000x32, .f32⟩
  | 85 => ⟨S150000x32, .f32⟩
  | 86 => ⟨S_, .f32⟩
  | 87 => ⟨S150000x32, .f32⟩
  | 88 => ⟨S150000x32, .f32⟩
  | 89 => ⟨S150000x32, .f32⟩
  | 90 => ⟨S60000x32, .f32⟩
  | 91 => ⟨S90000x32, .f32⟩
  | 92 => ⟨S500000x32, .f32⟩
  | 93 => ⟨S1x1x2000000, .i32⟩
  | 94 => ⟨S2000000, .i32⟩
  | 95 => ⟨S1x1x2000000, .i32⟩
  | 96 => ⟨S2000000, .i32⟩
  | 97 => ⟨S_, .f32⟩
  | 98 => ⟨S2000000, .f32⟩
  | 99 => ⟨S_, .f32⟩
  | 100 => ⟨S500000, .f32⟩
  | 101 => ⟨S2000000x1, .i32⟩
  | 102 => ⟨S500000, .f32⟩
  | 103 => ⟨S_, .f32⟩
  | 104 => ⟨S500000, .f32⟩
  | 105 => ⟨S500000, .f32⟩
  | 106 => ⟨S500000, .f32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S2000000x1, .i32⟩
  | 115 => ⟨S2000000, .f32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S2000000, .f32⟩
  | 125 => ⟨S2000000, .f32⟩
  | 126 => ⟨S_, .i32⟩
  | 127 => ⟨S2000000, .i32⟩
  | _ => ⟨S2x2000000, .i32⟩

abbrev hbmTy0_1 (i : Nat) : BufTy := match i % 128 with
  | 0 => ⟨S2000000, .i1⟩
  | 1 => ⟨S_, .i32⟩
  | 2 => ⟨S2000000, .i32⟩
  | 3 => ⟨S2000000, .i32⟩
  | 4 => ⟨S2000000, .i32⟩
  | 5 => ⟨S2000000x1, .i32⟩
  | 6 => ⟨S2000000x32, .f32⟩
  | 7 => ⟨S2000000x1, .f32⟩
  | 8 => ⟨S2000000x32, .f32⟩
  | 9 => ⟨S2000000x32, .f32⟩
  | 10 => ⟨S_, .f32⟩
  | 11 => ⟨S500000x32, .f32⟩
  | 12 => ⟨S2000000x1, .i32⟩
  | 13 => ⟨S500000x32, .f32⟩
  | 14 => ⟨S_, .f32⟩
  | 15 => ⟨S500000x32, .f32⟩
  | 16 => ⟨S500000x32, .f32⟩
  | 17 => ⟨S_, .f32⟩
  | 18 => ⟨S500000x32, .f32⟩
  | 19 => ⟨S500000x32, .f32⟩
  | 20 => ⟨S500000x32, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000x32, .f32⟩
  | 30 => ⟨S2000000x1, .f32⟩
  | 31 => ⟨S2000000x32, .f32⟩
  | 32 => ⟨S2000000x32, .f32⟩
  | 33 => ⟨S_, .f32⟩
  | 34 => ⟨S500000x32, .f32⟩
  | 35 => ⟨S2000000x1, .i32⟩
  | 36 => ⟨S500000x32, .f32⟩
  | 37 => ⟨S_, .f32⟩
  | 38 => ⟨S500000x32, .f32⟩
  | 39 => ⟨S500000x32, .f32⟩
  | 40 => ⟨S_, .f32⟩
  | 41 => ⟨S500000x32, .f32⟩
  | 42 => ⟨S500000x32, .f32⟩
  | 43 => ⟨S500000x32, .f32⟩
  | 44 => ⟨S200000x32, .f32⟩
  | 45 => ⟨S_, .i32⟩
  | 46 => ⟨S60000, .i32⟩
  | 47 => ⟨S60000, .i1⟩
  | 48 => ⟨S_, .i32⟩
  | 49 => ⟨S60000, .i32⟩
  | 50 => ⟨S60000, .i32⟩
  | 51 => ⟨S60000, .i32⟩
  | 52 => ⟨S60000x1, .i32⟩
  | 53 => ⟨S60000x32, .f32⟩
  | 54 => ⟨S300000x32, .f32⟩
  | 55 => ⟨S_, .i32⟩
  | 56 => ⟨S90000, .i32⟩
  | 57 => ⟨S90000, .i1⟩
  | 58 => ⟨S_, .i32⟩
  | 59 => ⟨S90000, .i32⟩
  | 60 => ⟨S90000, .i32⟩
  | 61 => ⟨S90000, .i32⟩
  | 62 => ⟨S90000x1, .i32⟩
  | 63 => ⟨S90000x32, .f32⟩
  | 64 => ⟨S150000x32, .f32⟩
  | 65 => ⟨S1x1x2000000, .i32⟩
  | 66 => ⟨S2000000, .i32⟩
  | 67 => ⟨S1x1x2000000, .i32⟩
  | 68 => ⟨S2000000, .i32⟩
  | 69 => ⟨S_, .f32⟩
  | 70 => ⟨S2000000, .f32⟩
  | 71 => ⟨S_, .f32⟩
  | 72 => ⟨S500000, .f32⟩
  | 73 => ⟨S2000000x1, .i32⟩
  | 74 => ⟨S500000, .f32⟩
  | 75 => ⟨S_, .f32⟩
  | 76 => ⟨S500000, .f32⟩
  | 77 => ⟨S500000, .f32⟩
  | 78 => ⟨S500000, .f32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000, .f32⟩
  | 97 => ⟨S2000000, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x32, .f32⟩
  | 107 => ⟨S2000000x1, .f32⟩
  | 108 => ⟨S2000000x32, .f32⟩
  | 109 => ⟨S2000000x32, .f32⟩
  | 110 => ⟨S_, .f32⟩
  | 111 => ⟨S500000x32, .f32⟩
  | 112 => ⟨S2000000x1, .i32⟩
  | 113 => ⟨S500000x32, .f32⟩
  | 114 => ⟨S_, .f32⟩
  | 115 => ⟨S500000x32, .f32⟩
  | 116 => ⟨S500000x32, .f32⟩
  | 117 => ⟨S_, .f32⟩
  | 118 => ⟨S500000x32, .f32⟩
  | 119 => ⟨S500000x32, .f32⟩
  | 120 => ⟨S500000x32, .f32⟩
  | 121 => ⟨S_, .i32⟩
  | 122 => ⟨S2000000, .i32⟩
  | 123 => ⟨S2000000, .i1⟩
  | 124 => ⟨S_, .i32⟩
  | 125 => ⟨S2000000, .i32⟩
  | 126 => ⟨S2000000, .i32⟩
  | 127 => ⟨S2000000, .i32⟩
  | _ => ⟨S2x2000000, .i32⟩

abbrev hbmTy0_2 (i : Nat) : BufTy := match i % 128 with
  | 0 => ⟨S2000000x1, .i32⟩
  | 1 => ⟨S2000000x32, .f32⟩
  | 2 => ⟨S2000000x1, .f32⟩
  | 3 => ⟨S2000000x32, .f32⟩
  | 4 => ⟨S2000000x32, .f32⟩
  | 5 => ⟨S_, .f32⟩
  | 6 => ⟨S500000x32, .f32⟩
  | 7 => ⟨S2000000x1, .i32⟩
  | 8 => ⟨S500000x32, .f32⟩
  | 9 => ⟨S_, .f32⟩
  | 10 => ⟨S500000x32, .f32⟩
  | 11 => ⟨S500000x32, .f32⟩
  | 12 => ⟨S_, .f32⟩
  | 13 => ⟨S500000x32, .f32⟩
  | 14 => ⟨S500000x32, .f32⟩
  | 15 => ⟨S500000x32, .f32⟩
  | 16 => ⟨S200000x32, .f32⟩
  | 17 => ⟨S_, .i32⟩
  | 18 => ⟨S60000, .i32⟩
  | 19 => ⟨S60000, .i1⟩
  | 20 => ⟨S_, .i32⟩
  | 21 => ⟨S60000, .i32⟩
  | 22 => ⟨S60000, .i32⟩
  | 23 => ⟨S60000, .i32⟩
  | 24 => ⟨S60000x1, .i32⟩
  | 25 => ⟨S60000x32, .f32⟩
  | 26 => ⟨S300000x32, .f32⟩
  | 27 => ⟨S_, .i32⟩
  | 28 => ⟨S90000, .i32⟩
  | 29 => ⟨S90000, .i1⟩
  | 30 => ⟨S_, .i32⟩
  | 31 => ⟨S90000, .i32⟩
  | 32 => ⟨S90000, .i32⟩
  | 33 => ⟨S90000, .i32⟩
  | 34 => ⟨S90000x1, .i32⟩
  | 35 => ⟨S90000x32, .f32⟩
  | 36 => ⟨S150000x32, .f32⟩
  | 37 => ⟨S1x1x2000000, .i32⟩
  | 38 => ⟨S2000000, .i32⟩
  | 39 => ⟨S1x1x2000000, .i32⟩
  | 40 => ⟨S2000000, .i32⟩
  | 41 => ⟨S_, .f32⟩
  | 42 => ⟨S2000000, .f32⟩
  | 43 => ⟨S_, .f32⟩
  | 44 => ⟨S500000, .f32⟩
  | 45 => ⟨S2000000x1, .i32⟩
  | 46 => ⟨S500000, .f32⟩
  | 47 => ⟨S_, .f32⟩
  | 48 => ⟨S500000, .f32⟩
  | 49 => ⟨S500000, .f32⟩
  | 50 => ⟨S500000, .f32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000, .f32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i32⟩
  | 66 => ⟨S2000000, .i32⟩
  | 67 => ⟨S2000000x1, .i32⟩
  | 68 => ⟨S2000000, .f32⟩
  | 69 => ⟨S2000000, .f32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x32, .f32⟩
  | 79 => ⟨S2000000x1, .f32⟩
  | 80 => ⟨S2000000x32, .f32⟩
  | 81 => ⟨S2000000x32, .f32⟩
  | 82 => ⟨S_, .f32⟩
  | 83 => ⟨S500000x32, .f32⟩
  | 84 => ⟨S2000000x1, .i32⟩
  | 85 => ⟨S500000x32, .f32⟩
  | 86 => ⟨S_, .f32⟩
  | 87 => ⟨S500000x32, .f32⟩
  | 88 => ⟨S500000x32, .f32⟩
  | 89 => ⟨S_, .f32⟩
  | 90 => ⟨S500000x32, .f32⟩
  | 91 => ⟨S500000x32, .f32⟩
  | 92 => ⟨S500000x32, .f32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i32⟩
  | 99 => ⟨S2000000, .i32⟩
  | 100 => ⟨S2000000x1, .i32⟩
  | 101 => ⟨S2000000x32, .f32⟩
  | 102 => ⟨S2000000x1, .f32⟩
  | 103 => ⟨S2000000x32, .f32⟩
  | 104 => ⟨S2000000x32, .f32⟩
  | 105 => ⟨S_, .f32⟩
  | 106 => ⟨S500000x32, .f32⟩
  | 107 => ⟨S2000000x1, .i32⟩
  | 108 => ⟨S500000x32, .f32⟩
  | 109 => ⟨S_, .f32⟩
  | 110 => ⟨S500000x32, .f32⟩
  | 111 => ⟨S500000x32, .f32⟩
  | 112 => ⟨S_, .f32⟩
  | 113 => ⟨S500000x32, .f32⟩
  | 114 => ⟨S500000x32, .f32⟩
  | 115 => ⟨S500000x32, .f32⟩
  | 116 => ⟨S200000x32, .f32⟩
  | 117 => ⟨S_, .i32⟩
  | 118 => ⟨S60000, .i32⟩
  | 119 => ⟨S60000, .i1⟩
  | 120 => ⟨S_, .i32⟩
  | 121 => ⟨S60000, .i32⟩
  | 122 => ⟨S60000, .i32⟩
  | 123 => ⟨S60000, .i32⟩
  | 124 => ⟨S60000x1, .i32⟩
  | 125 => ⟨S60000x32, .f32⟩
  | 126 => ⟨S300000x32, .f32⟩
  | 127 => ⟨S_, .i32⟩
  | _ => ⟨S2x2000000, .i32⟩

abbrev hbmTy0_3 (i : Nat) : BufTy := match i % 128 with
  | 0 => ⟨S90000, .i32⟩
  | 1 => ⟨S90000, .i1⟩
  | 2 => ⟨S_, .i32⟩
  | 3 => ⟨S90000, .i32⟩
  | 4 => ⟨S90000, .i32⟩
  | 5 => ⟨S90000, .i32⟩
  | 6 => ⟨S90000x1, .i32⟩
  | 7 => ⟨S90000x32, .f32⟩
  | 8 => ⟨S150000x32, .f32⟩
  | 9 => ⟨S150000x1x32, .f32⟩
  | 10 => ⟨S150000x1x32, .f32⟩
  | 11 => ⟨S150000x1x32, .f32⟩
  | 12 => ⟨S150000x3x32, .f32⟩
  | 13 => ⟨S_, .f32⟩
  | 14 => ⟨S150000x32, .f32⟩
  | 15 => ⟨S_, .f32⟩
  | 16 => ⟨S150000x32, .f32⟩
  | 17 => ⟨S150000x32, .f32⟩
  | 18 => ⟨S60000x32, .f32⟩
  | 19 => ⟨S90000x32, .f32⟩
  | 20 => ⟨S60000x64, .f32⟩
  | 21 => ⟨S90000x64, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x64, .f32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192x64, .f32⟩
  | 40 => ⟨S8192x64, .f32⟩
  | 41 => ⟨S_, .f32⟩
  | 42 => ⟨S8192, .f32⟩
  | _ => ⟨S2x2000000, .i32⟩

abbrev hbmTy (i : Nat) : BufTy := match i / 128 with
  | 0 => hbmTy0_0 i
  | 1 => hbmTy0_1 i
  | 2 => hbmTy0_2 i
  | 3 => hbmTy0_3 i
  | _ => ⟨S2x2000000, .i32⟩

abbrev bufTy : (tb : Table) → Fin (tcTables nBuf tb) → BufTy
  | .hbm, ⟨i, _⟩ => hbmTy i
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_c_21 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_c_23 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_25 : Ref sig .tc := ⟨.hbm, 142, rfl⟩
abbrev main_v105 : Ref sig .tc := ⟨.hbm, 143, rfl⟩
abbrev main_v106 : Ref sig .tc := ⟨.hbm, 144, rfl⟩
abbrev main_cst_26 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_27 : Ref sig .tc := ⟨.hbm, 149, rfl⟩
abbrev main_v110 : Ref sig .tc := ⟨.hbm, 150, rfl⟩
abbrev main_v111 : Ref sig .tc := ⟨.hbm, 151, rfl⟩
abbrev main_c_28 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_29 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_30 : Ref sig .tc := ⟨.hbm, 165, rfl⟩
abbrev main_v123 : Ref sig .tc := ⟨.hbm, 166, rfl⟩
abbrev main_v124 : Ref sig .tc := ⟨.hbm, 167, rfl⟩
abbrev main_cst_31 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_c_32 : Ref sig .tc := ⟨.hbm, 173, rfl⟩
abbrev main_v129 : Ref sig .tc := ⟨.hbm, 174, rfl⟩
abbrev main_v130 : Ref sig .tc := ⟨.hbm, 175, rfl⟩
abbrev main_c_33 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_c_34 : Ref sig .tc := ⟨.hbm, 183, rfl⟩
abbrev main_v137 : Ref sig .tc := ⟨.hbm, 184, rfl⟩
abbrev main_v138 : Ref sig .tc := ⟨.hbm, 185, rfl⟩
abbrev main_c_35 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_36 : Ref sig .tc := ⟨.hbm, 197, rfl⟩
abbrev main_v149 : Ref sig .tc := ⟨.hbm, 198, rfl⟩
abbrev main_cst_37 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_38 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_39 : Ref sig .tc := ⟨.hbm, 207, rfl⟩
abbrev main_v156 : Ref sig .tc := ⟨.hbm, 208, rfl⟩
abbrev main_v157 : Ref sig .tc := ⟨.hbm, 209, rfl⟩
abbrev main_c_40 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_c_41 : Ref sig .tc := ⟨.hbm, 216, rfl⟩
abbrev main_v163 : Ref sig .tc := ⟨.hbm, 217, rfl⟩
abbrev main_v164 : Ref sig .tc := ⟨.hbm, 218, rfl⟩
abbrev main_c_42 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_43 : Ref sig .tc := ⟨.hbm, 226, rfl⟩
abbrev main_v171 : Ref sig .tc := ⟨.hbm, 227, rfl⟩
abbrev main_v172 : Ref sig .tc := ⟨.hbm, 228, rfl⟩
abbrev main_c_44 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_45 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_46 : Ref sig .tc := ⟨.hbm, 242, rfl⟩
abbrev main_v184 : Ref sig .tc := ⟨.hbm, 243, rfl⟩
abbrev main_v185 : Ref sig .tc := ⟨.hbm, 244, rfl⟩
abbrev main_cst_47 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_c_48 : Ref sig .tc := ⟨.hbm, 249, rfl⟩
abbrev main_v189 : Ref sig .tc := ⟨.hbm, 250, rfl⟩
abbrev main_v190 : Ref sig .tc := ⟨.hbm, 251, rfl⟩
abbrev main_c_49 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_cst_50 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_cst_51 : Ref sig .tc := ⟨.hbm, 265, rfl⟩
abbrev main_v202 : Ref sig .tc := ⟨.hbm, 266, rfl⟩
abbrev main_v203 : Ref sig .tc := ⟨.hbm, 267, rfl⟩
abbrev main_cst_52 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_c_53 : Ref sig .tc := ⟨.hbm, 273, rfl⟩
abbrev main_v208 : Ref sig .tc := ⟨.hbm, 274, rfl⟩
abbrev main_v209 : Ref sig .tc := ⟨.hbm, 275, rfl⟩
abbrev main_c_54 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_c_55 : Ref sig .tc := ⟨.hbm, 283, rfl⟩
abbrev main_v216 : Ref sig .tc := ⟨.hbm, 284, rfl⟩
abbrev main_v217 : Ref sig .tc := ⟨.hbm, 285, rfl⟩
abbrev main_c_56 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_cst_57 : Ref sig .tc := ⟨.hbm, 297, rfl⟩
abbrev main_v228 : Ref sig .tc := ⟨.hbm, 298, rfl⟩
abbrev main_cst_58 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_cst_59 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_c_60 : Ref sig .tc := ⟨.hbm, 307, rfl⟩
abbrev main_v235 : Ref sig .tc := ⟨.hbm, 308, rfl⟩
abbrev main_v236 : Ref sig .tc := ⟨.hbm, 309, rfl⟩
abbrev main_c_61 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_c_62 : Ref sig .tc := ⟨.hbm, 316, rfl⟩
abbrev main_v242 : Ref sig .tc := ⟨.hbm, 317, rfl⟩
abbrev main_v243 : Ref sig .tc := ⟨.hbm, 318, rfl⟩
abbrev main_c_63 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_c_64 : Ref sig .tc := ⟨.hbm, 326, rfl⟩
abbrev main_v250 : Ref sig .tc := ⟨.hbm, 327, rfl⟩
abbrev main_v251 : Ref sig .tc := ⟨.hbm, 328, rfl⟩
abbrev main_c_65 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_cst_66 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_cst_67 : Ref sig .tc := ⟨.hbm, 342, rfl⟩
abbrev main_v263 : Ref sig .tc := ⟨.hbm, 343, rfl⟩
abbrev main_v264 : Ref sig .tc := ⟨.hbm, 344, rfl⟩
abbrev main_cst_68 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_c_69 : Ref sig .tc := ⟨.hbm, 349, rfl⟩
abbrev main_v268 : Ref sig .tc := ⟨.hbm, 350, rfl⟩
abbrev main_v269 : Ref sig .tc := ⟨.hbm, 351, rfl⟩
abbrev main_c_70 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_cst_71 : Ref sig .tc := ⟨.hbm, 361, rfl⟩
abbrev main_v278 : Ref sig .tc := ⟨.hbm, 362, rfl⟩
abbrev main_v279 : Ref sig .tc := ⟨.hbm, 363, rfl⟩
abbrev main_v280 : Ref sig .tc := ⟨.hbm, 364, rfl⟩
abbrev main_cst_72 : Ref sig .tc := ⟨.hbm, 365, rfl⟩
abbrev main_v281 : Ref sig .tc := ⟨.hbm, 366, rfl⟩
abbrev main_v282 : Ref sig .tc := ⟨.hbm, 367, rfl⟩
abbrev main_cst_73 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_c_74 : Ref sig .tc := ⟨.hbm, 373, rfl⟩
abbrev main_v287 : Ref sig .tc := ⟨.hbm, 374, rfl⟩
abbrev main_v288 : Ref sig .tc := ⟨.hbm, 375, rfl⟩
abbrev main_c_75 : Ref sig .tc := ⟨.hbm, 376, rfl⟩
abbrev main_v289 : Ref sig .tc := ⟨.hbm, 377, rfl⟩
abbrev main_v290 : Ref sig .tc := ⟨.hbm, 378, rfl⟩
abbrev main_v291 : Ref sig .tc := ⟨.hbm, 379, rfl⟩
abbrev main_v292 : Ref sig .tc := ⟨.hbm, 380, rfl⟩
abbrev main_v293 : Ref sig .tc := ⟨.hbm, 381, rfl⟩
abbrev main_v294 : Ref sig .tc := ⟨.hbm, 382, rfl⟩
abbrev main_c_76 : Ref sig .tc := ⟨.hbm, 383, rfl⟩
abbrev main_v295 : Ref sig .tc := ⟨.hbm, 384, rfl⟩
abbrev main_v296 : Ref sig .tc := ⟨.hbm, 385, rfl⟩
abbrev main_c_77 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_cst_78 : Ref sig .tc := ⟨.hbm, 397, rfl⟩
abbrev main_v307 : Ref sig .tc := ⟨.hbm, 398, rfl⟩
abbrev main_cst_79 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_v312 : Ref sig .tc := ⟨.hbm, 404, rfl⟩
abbrev main_v313 : Ref sig .tc := ⟨.hbm, 405, rfl⟩
abbrev main_c_80 : Ref sig .tc := ⟨.hbm, 406, rfl⟩
abbrev main_v314 : Ref sig .tc := ⟨.hbm, 407, rfl⟩
abbrev main_v315 : Ref sig .tc := ⟨.hbm, 408, rfl⟩
abbrev main_c_81 : Ref sig .tc := ⟨.hbm, 409, rfl⟩
abbrev main_v316 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_c_82 : Ref sig .tc := ⟨.hbm, 415, rfl⟩
abbrev main_v321 : Ref sig .tc := ⟨.hbm, 416, rfl⟩
abbrev main_v322 : Ref sig .tc := ⟨.hbm, 417, rfl⟩
abbrev main_c_83 : Ref sig .tc := ⟨.hbm, 418, rfl⟩
abbrev main_v323 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_v327 : Ref sig .tc := ⟨.hbm, 423, rfl⟩
abbrev main_v328 : Ref sig .tc := ⟨.hbm, 424, rfl⟩
abbrev main_cst_84 : Ref sig .tc := ⟨.hbm, 425, rfl⟩
abbrev main_v329 : Ref sig .tc := ⟨.hbm, 426, rfl⟩

abbrev nD : Nat := 1
abbrev τ : Topo := Topo.v7x

variable {F : FTy → Type} [FloatOps F]

class Facts₀ : Prop where
  concatenates_S60000x32_S90000x32_S150000x32_d0 : Shape.Concatenates [S60000x32, S90000x32] S150000x32 0
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S2000000x1_S2000000x32_0_1 : S2000000x1.BroadcastsInDim S2000000x32 (![0, 1] : Fin 2 → Fin S2000000x32.rank)
  bcast_S_S150000x32 : S_.BroadcastsInDim S150000x32 (![] : Fin 0 → Fin S150000x32.rank)
  slices_S150000x32_S60000x32_0_0 : S150000x32.Slices ![0, 0] S60000x32
  slices_S150000x32_S90000x32_60000_0 : S150000x32.Slices ![60000, 0] S90000x32
  concatenates_S200000x32_S300000x32_S500000x32_d0 : Shape.Concatenates [S200000x32, S300000x32] S500000x32 0
  slices_S3x2x2000000_S1x1x2000000_0_0_0 : S3x2x2000000.Slices ![0, 0, 0] S1x1x2000000
  shapeCasts_S1x1x2000000_S2000000 : S1x1x2000000.ShapeCasts S2000000
  slices_S3x2x2000000_S1x1x2000000_0_1_0 : S3x2x2000000.Slices ![0, 1, 0] S1x1x2000000
  bcast_S_S500000 : S_.BroadcastsInDim S500000 (![] : Fin 0 → Fin S500000.rank)
  bcast_S_S500000x32 : S_.BroadcastsInDim S500000x32 (![] : Fin 0 → Fin S500000x32.rank)
  slices_S500000x32_S200000x32_0_0 : S500000x32.Slices ![0, 0] S200000x32
  bcast_S_S60000 : S_.BroadcastsInDim S60000 (![] : Fin 0 → Fin S60000.rank)
  bcast_S60000_S60000x1_0 : S60000.BroadcastsInDim S60000x1 (![0] : Fin 1 → Fin S60000x1.rank)
  slices_S500000x32_S300000x32_200000_0 : S500000x32.Slices ![200000, 0] S300000x32
  bcast_S_S90000 : S_.BroadcastsInDim S90000 (![] : Fin 0 → Fin S90000.rank)
  bcast_S90000_S90000x1_0 : S90000.BroadcastsInDim S90000x1 (![0] : Fin 1 → Fin S90000x1.rank)
  slices_S3x2x2000000_S1x1x2000000_1_0_0 : S3x2x2000000.Slices ![1, 0, 0] S1x1x2000000
  slices_S3x2x2000000_S1x1x2000000_1_1_0 : S3x2x2000000.Slices ![1, 1, 0] S1x1x2000000
  slices_S3x2x2000000_S1x1x2000000_2_0_0 : S3x2x2000000.Slices ![2, 0, 0] S1x1x2000000
  slices_S3x2x2000000_S1x1x2000000_2_1_0 : S3x2x2000000.Slices ![2, 1, 0] S1x1x2000000
  bcast_S150000x32_S150000x1x32_0_2 : S150000x32.BroadcastsInDim S150000x1x32 (![0, 2] : Fin 2 → Fin S150000x1x32.rank)
  concatenates_S150000x1x32_S150000x1x32_S150000x1x32_S150000x3x32_d1 : Shape.Concatenates [S150000x1x32, S150000x1x32, S150000x1x32] S150000x3x32 1
  reducesTo_S150000x3x32_S150000x32_d1 : S150000x3x32.ReducesTo [1] S150000x32
  h_S_ : 0 < S_.numel
  concatenates_S60000x32_S60000x32_S60000x64_d1 : Shape.Concatenates [S60000x32, S60000x32] S60000x64 1
  concatenates_S90000x32_S90000x32_S90000x64_d1 : Shape.Concatenates [S90000x32, S90000x32] S90000x64 1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x32_S2000000x1_S2000000x32_1_0_n_n_0_1_132_wf : GatherDims.WF S150000x32 S2000000x1 S2000000x32 [1] [0] [] [0] [] 1 ![1, 32]
  scatter_S150000x32_S2000000x1_S2000000x32_1_0_0_1_wf : ScatterDims.WF S150000x32 S2000000x1 S2000000x32 [1] [0] [0] 1
  scatter_S500000_S2000000x1_S2000000_n_0_0_1_wf : ScatterDims.WF S500000 S2000000x1 S2000000 [] [0] [0] 1
  gather_S500000_S2000000x1_S2000000_n_0_n_n_0_1_1_wf : GatherDims.WF S500000 S2000000x1 S2000000 [] [0] [] [0] [] 1 ![1]
  gather_S500000x32_S2000000x1_S2000000x32_1_0_n_n_0_1_132_wf : GatherDims.WF S500000x32 S2000000x1 S2000000x32 [1] [0] [] [0] [] 1 ![1, 32]
  scatter_S500000x32_S2000000x1_S2000000x32_1_0_0_1_wf : ScatterDims.WF S500000x32 S2000000x1 S2000000x32 [1] [0] [0] 1
  gather_S200000x32_S60000x1_S60000x32_1_0_n_n_0_1_132_wf : GatherDims.WF S200000x32 S60000x1 S60000x32 [1] [0] [] [0] [] 1 ![1, 32]
  gather_S300000x32_S90000x1_S90000x32_1_0_n_n_0_1_132_wf : GatherDims.WF S300000x32 S90000x1 S90000x32 [1] [0] [] [0] [] 1 ![1, 32]
  gather_S60000x64_S8192x1_S8192x64_1_0_n_n_0_1_164_wf : GatherDims.WF S60000x64 S8192x1 S8192x64 [1] [0] [] [0] [] 1 ![1, 64]
  gather_S90000x64_S8192x1_S8192x64_1_0_n_n_0_1_164_wf : GatherDims.WF S90000x64 S8192x1 S8192x64 [1] [0] [] [0] [] 1 ![1, 64]

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x32_S2000000x1_S2000000x32_1_0_n_n_0_1_132 : GatherDims S150000x32 S2000000x1 S2000000x32 where
  offsetDims := [1]
  collapsedSliceDims := [0]
  operandBatchingDims := []
  startIndicesBatchingDims := []
  startIndexMap := [0]
  indexVectorDim := 1
  sliceSizes := ![1, 32]
  wf := gather_S150000x32_S2000000x1_S2000000x32_1_0_n_n_0_1_132_wf
def scatter_S150000x32_S2000000x1_S2000000x32_1_0_0_1 : ScatterDims S150000x32 S2000000x1 S2000000x32 where
  updateWindowDims := [1]
  insertedWindowDims := [0]
  scatterDimsToOperandDims := [0]
  indexVectorDim := 1
  wf := scatter_S150000x32_S2000000x1_S2000000x32_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def gather_S200000x32_S60000x1_S60000x32_1_0_n_n_0_1_132 : GatherDims S200000x32 S60000x1 S60000x32 where
  offsetDims := [1]
  collapsedSliceDims := [0]
  operandBatchingDims := []
  startIndicesBatchingDims := []
  startIndexMap := [0]
  indexVectorDim := 1
  sliceSizes := ![1, 32]
  wf := gather_S200000x32_S60000x1_S60000x32_1_0_n_n_0_1_132_wf
def gather_S300000x32_S90000x1_S90000x32_1_0_n_n_0_1_132 : GatherDims S300000x32 S90000x1 S90000x32 where
  offsetDims := [1]
  collapsedSliceDims := [0]
  operandBatchingDims := []
  startIndicesBatchingDims := []
  startIndexMap := [0]
  indexVectorDim := 1
  sliceSizes := ![1, 32]
  wf := gather_S300000x32_S90000x1_S90000x32_1_0_n_n_0_1_132_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def gather_S90000x64_S8192x1_S8192x64_1_0_n_n_0_1_164 : GatherDims S90000x64 S8192x1 S8192x64 where
  offsetDims := [1]
  collapsedSliceDims := [0]
  operandBatchingDims := []
  startIndicesBatchingDims := []
  startIndexMap := [0]
  indexVectorDim := 1
  sliceSizes := ![1, 64]
  wf := gather_S90000x64_S8192x1_S8192x64_1_0_n_n_0_1_164_wf

class Facts : Prop extends Facts₀ where

variable [Facts]
-- ==== Proof.KernelRun.lean ====
/-
  The idealized kernel's run with its result named.

  @main is five segments: a stretch of host operations, the domain-mean region, a second stretch, the
  row-dot region, and a closing reshape.  The contents of every unscoped buffer at each segment boundary are
  the fold `W0 … W5` (a stretch applies its operations' results; a region replaces its arrays by what its
  write-backs leave).  Every weakly fair execution terminates, nothing faults, and the final memory holds `W5`
  at every unscoped buffer: in particular the result buffer holds `W5` at it, and each argument buffer its
  launch contents.
-/
import proofs.«143580_j54803782697496_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents `W5`, and every argument buffer as launched. -/
theorem run_value : θ_run defs (onTc (τ := τ) (main (F := F))) ⟨m, fun _ => 0, ρ⟩ (fun r => ∀ c : Dev nD,
      r.2.mem ((c.tc : Thread nD τ).loc main_v323) = W5 m ρ c (Proc.devRef .tc main_v323)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v323 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.ValueRun

end
-- ==== Proof.HostStages.lean ====
/-
  Which buffers of the two programs hold the same arrays, boundary by boundary.

  Up to the first region the kernel's @main and the reference's @main are the same list of host operations, statement
  for statement: four graph convolutions (one on the 150000-node domain graph, three on the 500000-node graphs), each
  followed by gathers and a concatenation.  The printed programs cut that list into the same windows of 60 statements.
  At the boundary after window k the only buffers a later statement still reads are the ones listed in `Agree k`
  (besides the ten argument arrays, which no statement writes).  `Agree k W V` says the kernel's contents `W` and the
  reference's contents `V` hold equal arrays in every one of them.
-/
import proofs.«143580_j54803782697496_1_alg».proof.KernelIdeal
import proofs.«143580_j54803782697496_1_alg».proof.ReferenceIdeal

noncomputable section

namespace Cert.HostStages

open Idealize.ShloMosaic

variable {F : FTy → Type} [FloatOps F] [Named F]
variable (W : Valuation Cert.KernelIdeal.τ Cert.KernelIdeal.sig (Elt F)) (V : Valuation Cert.ReferenceIdeal.τ Cert.ReferenceIdeal.sig (Elt F))

/-- The ten argument arrays are the same in both programs. -/
structure AgreeArgs : Prop where
  arg0 : W (Proc.devRef .tc Cert.KernelIdeal.main_arg0) = V (Proc.devRef .tc Cert.ReferenceIdeal.main_arg0)
  arg1 : W (Proc.devRef .tc Cert.KernelIdeal.main_arg1) = V (Proc.devRef .tc Cert.ReferenceIdeal.main_arg1)
  arg2 : W (Proc.devRef .tc Cert.KernelIdeal.main_arg2) = V (Proc.devRef .tc Cert.ReferenceIdeal.main_arg2)
  arg3 : W (Proc.devRef .tc Cert.KernelIdeal.main_arg3) = V (Proc.devRef .tc Cert.ReferenceIdeal.main_arg3)
  arg4 : W (Proc.devRef .tc Cert.KernelIdeal.main_arg4) = V (Proc.devRef .tc Cert.ReferenceIdeal.main_arg4)
  arg5 : W (Proc.devRef .tc Cert.KernelIdeal.main_arg5) = V (Proc.devRef .tc Cert.ReferenceIdeal.main_arg5)
  arg6 : W (Proc.devRef .tc Cert.KernelIdeal.main_arg6) = V (Proc.devRef .tc Cert.ReferenceIdeal.main_arg6)
  arg7 : W (Proc.devRef .tc Cert.KernelIdeal.main_arg7) = V (Proc.devRef .tc Cert.ReferenceIdeal.main_arg7)
  arg8 : W (Proc.devRef .tc Cert.KernelIdeal.main_arg8) = V (Proc.devRef .tc Cert.ReferenceIdeal.main_arg8)
  arg9 : W (Proc.devRef .tc Cert.KernelIdeal.main_arg9) = V (Proc.devRef .tc Cert.ReferenceIdeal.main_arg9)

/-- After window 0: the arguments and the buffers still read later. -/
structure Agree0 : Prop extends AgreeArgs W V where
  v0 : W (Proc.devRef .tc Cert.KernelIdeal.main_v0) = V (Proc.devRef .tc Cert.ReferenceIdeal.main_v0)
  v2 : W (Proc.devRef .tc Cert.KernelIdeal.main_v2) = V (Proc.devRef .tc Cert.ReferenceIdeal.main_v2)
  v4 : W (Proc.devRef .tc Cert.KernelIdeal.main_v4) = V (Proc.devRef .tc Cert.ReferenceIdeal.main_v4)
  v26 : W (Proc.devRef .tc Cert.KernelIdeal.main_v26) = V (Proc.devRef .tc Cert.ReferenceIdeal.main_v26)
  v44 : W (Proc.devRef .tc Cert.KernelIdeal.main_v44) = V (Proc.devRef .tc Cert.ReferenceIdeal.main_v44)
  v46 : W (Proc.devRef .tc Cert.KernelIdeal.main_v46) = V (Proc.devRef .tc Cert.ReferenceIdeal.main_v46)

/-- After window 1: the arguments and the buffers still read later. -/
structure Agree1 : Prop extends AgreeArgs W V where
  v63 : W (Proc.devRef .tc Cert.KernelIdeal.main_v63) = V (Proc.devRef .tc Cert.ReferenceIdeal.main_v63)
  v64 : W (Proc.devRef .tc Cert.KernelIdeal.main_v64) = V (Proc.devRef .tc Cert.ReferenceIdeal.main_v64)
  v65 : W (Proc.devRef .tc Cert.KernelIdeal.main_v65) = V (Proc.devRef .tc Cert.ReferenceIdeal.main_v65)
  v67 : W (Proc.devRef .tc Cert.KernelIdeal.main_v67) = V (Proc.devRef .tc Cert.ReferenceIdeal.main_v67)
  v69 : W (Proc.devRef .tc Cert.KernelIdeal.main_v69) = V (Proc.devRef .tc Cert.ReferenceIdeal.main_v69)
  v91 : W (Proc.devRef .tc Cert.KernelIdeal.main_v91) = V (Proc.devRef .tc Cert.ReferenceIdeal.main_v91)
  v93 : W (Proc.devRef .tc Cert.KernelIdeal.main_v93) = V (Proc.devRef .tc Cert.ReferenceIdeal.main_v93)
  c23 : W (Proc.devRef .tc Cert.KernelIdeal.main_c_23) = V (Proc.devRef .tc Cert.ReferenceIdeal.main_c_23)

/-- After window 2: the arguments and the buffers still read later. -/
structure Agree2 : Prop extends AgreeArgs W V where
  v63 : W (Proc.devRef .tc Cert.KernelIdeal.main_v63) = V (Proc.devRef .tc Cert.ReferenceIdeal.main_v63)
  v64 : W (Proc.devRef .tc Cert.KernelIdeal.main_v64) = V (Proc.devRef .tc Cert.ReferenceIdeal.main_v64)
  v65 : W (Proc.devRef .tc Cert.KernelIdeal.main_v65) = V (Proc.devRef .tc Cert.ReferenceIdeal.main_v65)
  v135 : W (Proc.devRef .tc Cert.KernelIdeal.main_v135) = V (Proc.devRef .tc Cert.ReferenceIdeal.main_v135)
  v136 : W (Proc.devRef .tc Cert.KernelIdeal.main_v136) = V (Proc.devRef .tc Cert.ReferenceIdeal.main_v136)
  v141 : W (Proc.devRef .tc Cert.KernelIdeal.main_v141) = V (Proc.devRef .tc Cert.ReferenceIdeal.main_v141)

/-- After window 3: the arguments and the buffers still read later. -/
structure Agree3 : Prop extends AgreeArgs W V where
  v63 : W (Proc.devRef .tc Cert.KernelIdeal.main_v63) = V (Proc.devRef .tc Cert.ReferenceIdeal.main_v63)
  v64 : W (Proc.devRef .tc Cert.KernelIdeal.main_v64) = V (Proc.devRef .tc Cert.ReferenceIdeal.main_v64)
  v65 : W (Proc.devRef .tc Cert.KernelIdeal.main_v65) = V (Proc.devRef .tc Cert.ReferenceIdeal.main_v65)
  v144 : W (Proc.devRef .tc Cert.KernelIdeal.main_v144) = V (Proc.devRef .tc Cert.ReferenceIdeal.main_v144)
  v146 : W (Proc.devRef .tc Cert.KernelIdeal.main_v146) = V (Proc.devRef .tc Cert.ReferenceIdeal.main_v146)
  v148 : W (Proc.devRef .tc Cert.KernelIdeal.main_v148) = V (Proc.devRef .tc Cert.ReferenceIdeal.main_v148)
  v170 : W (Proc.devRef .tc Cert.KernelIdeal.main_v170) = V (Proc.devRef .tc Cert.ReferenceIdeal.main_v170)
  v188 : W (Proc.devRef .tc Cert.KernelIdeal.main_v188) = V (Proc.devRef .tc Cert.ReferenceIdeal.main_v188)
  c48 : W (Proc.devRef .tc Cert.KernelIdeal.main_c_48) = V (Proc.devRef .tc Cert.ReferenceIdeal.main_c_48)

/-- After window 4: the arguments and the buffers still read later. -/
structure Agree4 : Prop extends AgreeArgs W V where
  v63 : W (Proc.devRef .tc Cert.KernelIdeal.main_v63) = V (Proc.devRef .tc Cert.ReferenceIdeal.main_v63)
  v64 : W (Proc.devRef .tc Cert.KernelIdeal.main_v64) = V (Proc.devRef .tc Cert.ReferenceIdeal.main_v64)
  v65 : W (Proc.devRef .tc Cert.KernelIdeal.main_v65) = V (Proc.devRef .tc Cert.ReferenceIdeal.main_v65)
  v144 : W (Proc.devRef .tc Cert.KernelIdeal.main_v144) = V (Proc.devRef .tc Cert.ReferenceIdeal.main_v144)
  v223 : W (Proc.devRef .tc Cert.KernelIdeal.main_v223) = V (Proc.devRef .tc Cert.ReferenceIdeal.main_v223)
  v225 : W (Proc.devRef .tc Cert.KernelIdeal.main_v225) = V (Proc.devRef .tc Cert.ReferenceIdeal.main_v225)
  v227 : W (Proc.devRef .tc Cert.KernelIdeal.main_v227) = V (Proc.devRef .tc Cert.ReferenceIdeal.main_v227)
  v234 : W (Proc.devRef .tc Cert.KernelIdeal.main_v234) = V (Proc.devRef .tc Cert.ReferenceIdeal.main_v234)
  v236 : W (Proc.devRef .tc Cert.KernelIdeal.main_v236) = V (Proc.devRef .tc Cert.ReferenceIdeal.main_v236)

/-- After window 5: the arguments and the buffers still read later. -/
structure Agree5 : Prop extends AgreeArgs W V where
  v63 : W (Proc.devRef .tc Cert.KernelIdeal.main_v63) = V (Proc.devRef .tc Cert.ReferenceIdeal.main_v63)
  v64 : W (Proc.devRef .tc Cert.KernelIdeal.main_v64) = V (Proc.devRef .tc Cert.ReferenceIdeal.main_v64)
  v65 : W (Proc.devRef .tc Cert.KernelIdeal.main_v65) = V (Proc.devRef .tc Cert.ReferenceIdeal.main_v65)
  v144 : W (Proc.devRef .tc Cert.KernelIdeal.main_v144) = V (Proc.devRef .tc Cert.ReferenceIdeal.main_v144)
  v223 : W (Proc.devRef .tc Cert.KernelIdeal.main_v223) = V (Proc.devRef .tc Cert.ReferenceIdeal.main_v223)
  v282 : W (Proc.devRef .tc Cert.KernelIdeal.main_v282) = V (Proc.devRef .tc Cert.ReferenceIdeal.main_v282)
  v283 : W (Proc.devRef .tc Cert.KernelIdeal.main_v283) = V (Proc.devRef .tc Cert.ReferenceIdeal.main_v283)

/-- After window 6 's statements up to the first region: the arguments and the buffers still read later. -/
structure Agree6 : Prop extends AgreeArgs W V where
  v63 : W (Proc.devRef .tc Cert.KernelIdeal.main_v63) = V (Proc.devRef .tc Cert.ReferenceIdeal.main_v63)
  v64 : W (Proc.devRef .tc Cert.KernelIdeal.main_v64) = V (Proc.devRef .tc Cert.ReferenceIdeal.main_v64)
  v144 : W (Proc.devRef .tc Cert.KernelIdeal.main_v144) = V (Proc.devRef .tc Cert.ReferenceIdeal.main_v144)
  v223 : W (Proc.devRef .tc Cert.KernelIdeal.main_v223) = V (Proc.devRef .tc Cert.ReferenceIdeal.main_v223)
  v302 : W (Proc.devRef .tc Cert.KernelIdeal.main_v302) = V (Proc.devRef .tc Cert.ReferenceIdeal.main_v302)

end Cert.HostStages

end
-- ==== Proof.HostWin0.lean ====
/-
  One step of the comparison of the two programs' shared host operations: window 0 (statements 1 … 60 of either @main).

  Both programs run the same statements here.  Evaluating the window's operations on either side writes each buffer
  still read later as a term over the buffers live at the window's entry; the two terms are the same operations
  applied to buffers that hold equal arrays, so the buffers live at the window's exit hold equal arrays too.
-/
import proofs.«143580_j54803782697496_1_alg».proof.Proof.HostStages
import proofs.«143580_j54803782697496_1_alg».proof.Proof.Gen.KernelIdeal.Launch
import proofs.«143580_j54803782697496_1_alg».proof.Proof.Gen.ReferenceIdeal.Run

set_option maxRecDepth 16384

noncomputable section

namespace Cert.HostWin0

open Idealize.ShloMosaic Idealize.ShloMosaic.StableHlo Cert.HostStages

variable {F : FTy → Type} [FloatOps F] [Named F]
variable {W : Valuation Cert.KernelIdeal.τ Cert.KernelIdeal.sig (Elt F)} {V : Valuation Cert.ReferenceIdeal.τ Cert.ReferenceIdeal.sig (Elt F)}

set_option maxHeartbeats 40000000 in
/-- Equal arrays in the buffers live at the entry give equal arrays in the buffers live at the exit. -/
theorem step (h : AgreeArgs W V) :
    Agree0 (after Cert.KernelIdeal.Gen.main_part0_ops0 W) (after Cert.ReferenceIdeal.Value.ops_part0 V) := by
  refine { arg0 := ?_, arg1 := ?_, arg2 := ?_, arg3 := ?_, arg4 := ?_, arg5 := ?_, arg6 := ?_, arg7 := ?_, arg8 := ?_, arg9 := ?_, v0 := ?_, v2 := ?_, v4 := ?_, v26 := ?_, v44 := ?_, v46 := ?_ } <;>
    after_results_simp <;> (try simp only [← h.arg0, ← h.arg1, ← h.arg2, ← h.arg3, ← h.arg4, ← h.arg5, ← h.arg6, ← h.arg7, ← h.arg8, ← h.arg9]) <;> (try rfl)

end Cert.HostWin0

end
-- ==== Proof.HostWin1.lean ====
/-
  One step of the comparison of the two programs' shared host operations: window 1 (statements 61 … 120 of either @main).

  Both programs run the same statements here.  Evaluating the window's operations on either side writes each buffer
  still read later as a term over the buffers live at the window's entry; the two terms are the same operations
  applied to buffers that hold equal arrays, so the buffers live at the window's exit hold equal arrays too.
-/
import proofs.«143580_j54803782697496_1_alg».proof.Proof.HostStages
import proofs.«143580_j54803782697496_1_alg».proof.Proof.Gen.KernelIdeal.Launch
import proofs.«143580_j54803782697496_1_alg».proof.Proof.Gen.ReferenceIdeal.Run

set_option maxRecDepth 16384

noncomputable section

namespace Cert.HostWin1

open Idealize.ShloMosaic Idealize.ShloMosaic.StableHlo Cert.HostStages

variable {F : FTy → Type} [FloatOps F] [Named F]
variable {W : Valuation Cert.KernelIdeal.τ Cert.KernelIdeal.sig (Elt F)} {V : Valuation Cert.ReferenceIdeal.τ Cert.ReferenceIdeal.sig (Elt F)}

set_option maxHeartbeats 40000000 in
/-- Equal arrays in the buffers live at the entry give equal arrays in the buffers live at the exit. -/
theorem step (h : Agree0 W V) :
    Agree1 (after Cert.KernelIdeal.Gen.main_part1_ops0 W) (after Cert.ReferenceIdeal.Value.ops_part1 V) := by
  refine { arg0 := ?_, arg1 := ?_, arg2 := ?_, arg3 := ?_, arg4 := ?_, arg5 := ?_, arg6 := ?_, arg7 := ?_, arg8 := ?_, arg9 := ?_, v63 := ?_, v64 := ?_, v65 := ?_, v67 := ?_, v69 := ?_, v91 := ?_, v93 := ?_, c23 := ?_ } <;>
    after_results_simp <;> (try simp only [← h.arg0, ← h.arg1, ← h.arg2, ← h.arg3, ← h.arg4, ← h.arg5, ← h.arg6, ← h.arg7, ← h.arg8, ← h.arg9, ← h.v0, ← h.v2, ← h.v4, ← h.v26, ← h.v44, ← h.v46]) <;> (try rfl)

end Cert.HostWin1

end
-- ==== Proof.HostWin2.lean ====
/-
  One step of the comparison of the two programs' shared host operations: window 2 (statements 121 … 180 of either @main).

  Both programs run the same statements here.  Evaluating the window's operations on either side writes each buffer
  still read later as a term over the buffers live at the window's entry; the two terms are the same operations
  applied to buffers that hold equal arrays, so the buffers live at the window's exit hold equal arrays too.
-/
import proofs.«143580_j54803782697496_1_alg».proof.Proof.HostStages
import proofs.«143580_j54803782697496_1_alg».proof.Proof.Gen.KernelIdeal.Launch
import proofs.«143580_j54803782697496_1_alg».proof.Proof.Gen.ReferenceIdeal.Run

set_option maxRecDepth 16384

noncomputable section

namespace Cert.HostWin2

open Idealize.ShloMosaic Idealize.ShloMosaic.StableHlo Cert.HostStages

variable {F : FTy → Type} [FloatOps F] [Named F]
variable {W : Valuation Cert.KernelIdeal.τ Cert.KernelIdeal.sig (Elt F)} {V : Valuation Cert.ReferenceIdeal.τ Cert.ReferenceIdeal.sig (Elt F)}

set_option maxHeartbeats 40000000 in
/-- Equal arrays in the buffers live at the entry give equal arrays in the buffers live at the exit. -/
theorem step (h : Agree1 W V) :
    Agree2 (after Cert.KernelIdeal.Gen.main_part2_ops0 W) (after Cert.ReferenceIdeal.Value.ops_part2 V) := by
  refine { arg0 := ?_, arg1 := ?_, arg2 := ?_, arg3 := ?_, arg4 := ?_, arg5 := ?_, arg6 := ?_, arg7 := ?_, arg8 := ?_, arg9 := ?_, v63 := ?_, v64 := ?_, v65 := ?_, v135 := ?_, v136 := ?_, v141 := ?_ } <;>
    after_results_simp <;> (try simp only [← h.arg0, ← h.arg1, ← h.arg2, ← h.arg3, ← h.arg4, ← h.arg5, ← h.arg6, ← h.arg7, ← h.arg8, ← h.arg9, ← h.v63, ← h.v64, ← h.v65, ← h.v67, ← h.v69, ← h.v91, ← h.v93, ← h.c23]) <;> (try rfl)

end Cert.HostWin2

end
-- ==== Proof.HostWin3.lean ====
/-
  One step of the comparison of the two programs' shared host operations: window 3 (statements 181 … 240 of either @main).

  Both programs run the same statements here.  Evaluating the window's operations on either side writes each buffer
  still read later as a term over the buffers live at the window's entry; the two terms are the same operations
  applied to buffers that hold equal arrays, so the buffers live at the window's exit hold equal arrays too.
-/
import proofs.«143580_j54803782697496_1_alg».proof.Proof.HostStages
import proofs.«143580_j54803782697496_1_alg».proof.Proof.Gen.KernelIdeal.Launch
import proofs.«143580_j54803782697496_1_alg».proof.Proof.Gen.ReferenceIdeal.Run

set_option maxRecDepth 16384

noncomputable section

namespace Cert.HostWin3

open Idealize.ShloMosaic Idealize.ShloMosaic.StableHlo Cert.HostStages

variable {F : FTy → Type} [FloatOps F] [Named F]
variable {W : Valuation Cert.KernelIdeal.τ Cert.KernelIdeal.sig (Elt F)} {V : Valuation Cert.ReferenceIdeal.τ Cert.ReferenceIdeal.sig (Elt F)}

set_option maxHeartbeats 40000000 in
/-- Equal arrays in the buffers live at the entry give equal arrays in the buffers live at the exit. -/
theorem step (h : Agree2 W V) :
    Agree3 (after Cert.KernelIdeal.Gen.main_part3_ops0 W) (after Cert.ReferenceIdeal.Value.ops_part3 V) := by
  refine { arg0 := ?_, arg1 := ?_, arg2 := ?_, arg3 := ?_, arg4 := ?_, arg5 := ?_, arg6 := ?_, arg7 := ?_, arg8 := ?_, arg9 := ?_, v63 := ?_, v64 := ?_, v65 := ?_, v144 := ?_, v146 := ?_, v148 := ?_, v170 := ?_, v188 := ?_, c48 := ?_ } <;>
    after_results_simp <;> (try simp only [← h.arg0, ← h.arg1, ← h.arg2, ← h.arg3, ← h.arg4, ← h.arg5, ← h.arg6, ← h.arg7, ← h.arg8, ← h.arg9, ← h.v63, ← h.v64, ← h.v65, ← h.v135, ← h.v136, ← h.v141]) <;> (try rfl)

end Cert.HostWin3

end
-- ==== Proof.HostWin4.lean ====
/-
  One step of the comparison of the two programs' shared host operations: window 4 (statements 241 … 300 of either @main).

  Both programs run the same statements here.  Evaluating the window's operations on either side writes each buffer
  still read later as a term over the buffers live at the window's entry; the two terms are the same operations
  applied to buffers that hold equal arrays, so the buffers live at the window's exit hold equal arrays too.
-/
import proofs.«143580_j54803782697496_1_alg».proof.Proof.HostStages
import proofs.«143580_j54803782697496_1_alg».proof.Proof.Gen.KernelIdeal.Launch
import proofs.«143580_j54803782697496_1_alg».proof.Proof.Gen.ReferenceIdeal.Run

set_option maxRecDepth 16384

noncomputable section

namespace Cert.HostWin4

open Idealize.ShloMosaic Idealize.ShloMosaic.StableHlo Cert.HostStages

variable {F : FTy → Type} [FloatOps F] [Named F]
variable {W : Valuation Cert.KernelIdeal.τ Cert.KernelIdeal.sig (Elt F)} {V : Valuation Cert.ReferenceIdeal.τ Cert.ReferenceIdeal.sig (Elt F)}

set_option maxHeartbeats 40000000 in
/-- Equal arrays in the buffers live at the entry give equal arrays in the buffers live at the exit. -/
theorem step (h : Agree3 W V) :
    Agree4 (after Cert.KernelIdeal.Gen.main_part4_ops0 W) (after Cert.ReferenceIdeal.Value.ops_part4 V) := by
  refine { arg0 := ?_, arg1 := ?_, arg2 := ?_, arg3 := ?_, arg4 := ?_, arg5 := ?_, arg6 := ?_, arg7 := ?_, arg8 := ?_, arg9 := ?_, v63 := ?_, v64 := ?_, v65 := ?_, v144 := ?_, v223 := ?_, v225 := ?_, v227 := ?_, v234 := ?_, v236 := ?_ } <;>
    after_results_simp <;> (try simp only [← h.arg0, ← h.arg1, ← h.arg2, ← h.arg3, ← h.arg4, ← h.arg5, ← h.arg6, ← h.arg7, ← h.arg8, ← h.arg9, ← h.v63, ← h.v64, ← h.v65, ← h.v144, ← h.v146, ← h.v148, ← h.v170, ← h.v188, ← h.c48]) <;> (try rfl)

end Cert.HostWin4

end
-- ==== Proof.HostWin5.lean ====
/-
  One step of the comparison of the two programs' shared host operations: window 5 (statements 301 … 360 of either @main).

  Both programs run the same statements here.  Evaluating the window's operations on either side writes each buffer
  still read later as a term over the buffers live at the window's entry; the two terms are the same operations
  applied to buffers that hold equal arrays, so the buffers live at the window's exit hold equal arrays too.
-/
import proofs.«143580_j54803782697496_1_alg».proof.Proof.HostStages
import proofs.«143580_j54803782697496_1_alg».proof.Proof.Gen.KernelIdeal.Launch
import proofs.«143580_j54803782697496_1_alg».proof.Proof.Gen.ReferenceIdeal.Run

set_option maxRecDepth 16384

noncomputable section

namespace Cert.HostWin5

open Idealize.ShloMosaic Idealize.ShloMosaic.StableHlo Cert.HostStages

variable {F : FTy → Type} [FloatOps F] [Named F]
variable {W : Valuation Cert.KernelIdeal.τ Cert.KernelIdeal.sig (Elt F)} {V : Valuation Cert.ReferenceIdeal.τ Cert.ReferenceIdeal.sig (Elt F)}

set_option maxHeartbeats 40000000 in
/-- Equal arrays in the buffers live at the entry give equal arrays in the buffers live at the exit. -/
theorem step (h : Agree4 W V) :
    Agree5 (after Cert.KernelIdeal.Gen.main_part5_ops0 W) (after Cert.ReferenceIdeal.Value.ops_part5 V) := by
  refine { arg0 := ?_, arg1 := ?_, arg2 := ?_, arg3 := ?_, arg4 := ?_, arg5 := ?_, arg6 := ?_, arg7 := ?_, arg8 := ?_, arg9 := ?_, v63 := ?_, v64 := ?_, v65 := ?_, v144 := ?_, v223 := ?_, v282 := ?_, v283 := ?_ } <;>
    after_results_simp <;> (try simp only [← h.arg0, ← h.arg1, ← h.arg2, ← h.arg3, ← h.arg4, ← h.arg5, ← h.arg6, ← h.arg7, ← h.arg8, ← h.arg9, ← h.v63, ← h.v64, ← h.v65, ← h.v144, ← h.v223, ← h.v225, ← h.v227, ← h.v234, ← h.v236]) <;> (try rfl)

end Cert.HostWin5

end
-- ==== Proof.HostWin6.lean ====
/-
  One step of the comparison of the two programs' shared host operations: the last window's statements up to the first region (361 … 383 of either @main).

  Both programs run the same statements here.  Evaluating the window's operations on either side writes each buffer
  still read later as a term over the buffers live at the window's entry; the two terms are the same operations
  applied to buffers that hold equal arrays, so the buffers live at the window's exit hold equal arrays too.
-/
import proofs.«143580_j54803782697496_1_alg».proof.Proof.HostStages
import proofs.«143580_j54803782697496_1_alg».proof.Proof.Gen.KernelIdeal.Launch
import proofs.«143580_j54803782697496_1_alg».proof.Proof.Gen.ReferenceIdeal.Run

set_option maxRecDepth 16384

noncomputable section

namespace Cert.HostWin6

open Idealize.ShloMosaic Idealize.ShloMosaic.StableHlo Cert.HostStages

variable {F : FTy → Type} [FloatOps F] [Named F]
variable {W : Valuation Cert.KernelIdeal.τ Cert.KernelIdeal.sig (Elt F)} {V : Valuation Cert.ReferenceIdeal.τ Cert.ReferenceIdeal.sig (Elt F)}

set_option maxHeartbeats 40000000 in
/-- Equal arrays in the buffers live at the entry give equal arrays in the buffers live at the exit. -/
theorem step (h : Agree5 W V) :
    Agree6 (after Cert.KernelIdeal.Gen.main_part6_ops0 W) (after (Cert.ReferenceIdeal.Value.ops_part6.take 23) V) := by
  simp only [Cert.ReferenceIdeal.Value.ops_part6, List.take_succ_cons, List.take_zero]
  refine { arg0 := ?_, arg1 := ?_, arg2 := ?_, arg3 := ?_, arg4 := ?_, arg5 := ?_, arg6 := ?_, arg7 := ?_, arg8 := ?_, arg9 := ?_, v63 := ?_, v64 := ?_, v144 := ?_, v223 := ?_, v302 := ?_ } <;>
    after_results_simp <;> (try simp only [← h.arg0, ← h.arg1, ← h.arg2, ← h.arg3, ← h.arg4, ← h.arg5, ← h.arg6, ← h.arg7, ← h.arg8, ← h.arg9, ← h.v63, ← h.v64, ← h.v65, ← h.v144, ← h.v223, ← h.v282, ← h.v283]) <;> (try rfl)

end Cert.HostWin6

end
-- ==== Proof.HostPre.lean ====
/-
  The shared host operations, whole: the kernel's first stretch against the reference's first 383 operations.

  The kernel's first stretch (everything before the domain-mean region) is its seven windows' operations one after the
  other, and the reference's @main is its seven windows with the last one cut after its 23rd operation.  The fold of
  a list made of consecutive pieces is the pieces' folds one after the other, so the window steps chain: from equal
  argument arrays both programs reach the first region's entry with equal arrays in the three per-domain embeddings,
  the two halves of the intra-domain embedding, and the arguments.
-/
import proofs.«143580_j54803782697496_1_alg».proof.Proof.HostWin0
import proofs.«143580_j54803782697496_1_alg».proof.Proof.HostWin1
import proofs.«143580_j54803782697496_1_alg».proof.Proof.HostWin2
import proofs.«143580_j54803782697496_1_alg».proof.Proof.HostWin3
import proofs.«143580_j54803782697496_1_alg».proof.Proof.HostWin4
import proofs.«143580_j54803782697496_1_alg».proof.Proof.HostWin5
import proofs.«143580_j54803782697496_1_alg».proof.Proof.HostWin6
import Idealize.ShloMosaic.Lib.Pipeline.Frame

set_option maxRecDepth 16384

noncomputable section

namespace Cert.HostPre

open Idealize.ShloMosaic Idealize.ShloMosaic.StableHlo Cert.HostStages

variable {F : FTy → Type} [FloatOps F] [Named F]

set_option maxHeartbeats 4000000 in
/-- The kernel's first stretch is its seven windows' operations one after the other. -/
theorem kernel_cut : (Cert.KernelIdeal.Gen.hostOps0 : List (HloOp Cert.KernelIdeal.τ Cert.KernelIdeal.sig (Elt F)))
    = Cert.KernelIdeal.Gen.main_part0_ops0 ++ (Cert.KernelIdeal.Gen.main_part1_ops0 ++ (Cert.KernelIdeal.Gen.main_part2_ops0 ++ (Cert.KernelIdeal.Gen.main_part3_ops0 ++ (Cert.KernelIdeal.Gen.main_part4_ops0 ++ (Cert.KernelIdeal.Gen.main_part5_ops0 ++ Cert.KernelIdeal.Gen.main_part6_ops0))))) := rfl

/-- The reference's @main with its last window cut after the 23rd operation. -/
theorem reference_cut : (Cert.ReferenceIdeal.Value.ops : List (HloOp Cert.ReferenceIdeal.τ Cert.ReferenceIdeal.sig (Elt F)))
    = Cert.ReferenceIdeal.Value.ops_part0 ++ (Cert.ReferenceIdeal.Value.ops_part1 ++ (Cert.ReferenceIdeal.Value.ops_part2 ++ (Cert.ReferenceIdeal.Value.ops_part3 ++ (Cert.ReferenceIdeal.Value.ops_part4 ++ (Cert.ReferenceIdeal.Value.ops_part5 ++ (Cert.ReferenceIdeal.Value.ops_part6.take 23 ++ Cert.ReferenceIdeal.Value.ops_part6.drop 23)))))) := by
  rw [List.take_append_drop]

/-- The reference's contents after its first 383 operations, from contents `V`. -/
abbrev refEntry (V : Valuation Cert.ReferenceIdeal.τ Cert.ReferenceIdeal.sig (Elt F)) :
    Valuation Cert.ReferenceIdeal.τ Cert.ReferenceIdeal.sig (Elt F) :=
  after (Cert.ReferenceIdeal.Value.ops_part6.take 23) (after Cert.ReferenceIdeal.Value.ops_part5 (after Cert.ReferenceIdeal.Value.ops_part4 (after Cert.ReferenceIdeal.Value.ops_part3 (after Cert.ReferenceIdeal.Value.ops_part2 (after Cert.ReferenceIdeal.Value.ops_part1 (after Cert.ReferenceIdeal.Value.ops_part0 (V)))))))

/-- The reference's whole fold is its last 35 operations' fold from `refEntry`. -/
theorem reference_after (V : Valuation Cert.ReferenceIdeal.τ Cert.ReferenceIdeal.sig (Elt F)) :
    after Cert.ReferenceIdeal.Value.ops V = after (Cert.ReferenceIdeal.Value.ops_part6.drop 23) (refEntry V) := by
  rw [reference_cut]
  simp only [StableHlo.after_append]

/-- From equal argument arrays, the kernel at its first region's entry and the reference after its first 383
    operations hold equal arrays in every buffer read later. -/
theorem entry_agree {W : Valuation Cert.KernelIdeal.τ Cert.KernelIdeal.sig (Elt F)}
    {V : Valuation Cert.ReferenceIdeal.τ Cert.ReferenceIdeal.sig (Elt F)} (h : AgreeArgs W V) :
    Agree6 (after Cert.KernelIdeal.Gen.hostOps0 W) (refEntry V) := by
  rw [kernel_cut]
  simp only [StableHlo.after_append]
  exact Cert.HostWin6.step (Cert.HostWin5.step (Cert.HostWin4.step (Cert.HostWin3.step (Cert.HostWin2.step
    (Cert.HostWin1.step (Cert.HostWin0.step h))))))

end Cert.HostPre

end
-- ==== Proof.MeanBlocks.lean ====
/-
  The domain-mean region as one function of its three input arrays.

  The region's grid has 50 points; at point t every window (three inputs, one output) holds rows
  3000·t … 3000·t + 2999 of its [150000, 32] array, all 32 columns.  The body adds the three input blocks
  entry by entry and multiplies by the constant named inv_3.  So what point t writes back is block t of the
  entrywise function  (a, b, d) ↦ (a + b + d) · inv_3  of the arrays as the region finds them, the 50 blocks
  tile the output array, and the array ends holding that function.
-/
import proofs.«143580_j54803782697496_1_alg».proof.Proof.Gen.KernelIdeal.Frame
import Idealize.ShloMosaic.Lib.Pipeline.Value

set_option maxRecDepth 16384

noncomputable section

namespace Cert.KernelIdeal.MeanValue

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

theorem zeros2 : (![0, 0] : Fin 2 → Nat) = fun _ => 0 := funext fun a => by fin_cases a <;> rfl

/-- The mean of three arrays, entry by entry, with the third written as the named constant. -/
abbrev mean3 (a b d : S150000x32.Idx → Elt F .f32) : S150000x32.Idx → Elt F .f32 :=
  fun i => FloatOps.mulf (FloatOps.addf (FloatOps.addf (a i) (b i)) (d i)) (Named.named κ "inv_3" (φ := .f32) 0x3EAAAAAB#32)

/-- The body's stored value, entry by entry, of the three loaded blocks. -/
theorem payload_eq (x0 x1 x2 : Vec F S3000x32 .f32) :
    k0_pay1 x0 x1 x2 = fun j => FloatOps.mulf (FloatOps.addf (FloatOps.addf (x0 j) (x1 j)) (x2 j))
      (Named.named κ "inv_3" (φ := .f32) 0x3EAAAAAB#32) := by
  unfold k0_pay1
  simp only [shapeCast_self]
  rfl

/-- Over the grid: every input window's block index is the output window's, which runs over 0 … 49 on the rows and
    is 0 on the columns. -/
theorem idx_facts : ∀ t : Fin cfg0.N, win0_0.index t (0 : Fin 2) = win0_3.index t (0 : Fin 2) + 0
    ∧ win0_0.index t (1 : Fin 2) = win0_3.index t (1 : Fin 2) + 0
    ∧ win0_1.index t (0 : Fin 2) = win0_3.index t (0 : Fin 2) + 0
    ∧ win0_1.index t (1 : Fin 2) = win0_3.index t (1 : Fin 2) + 0
    ∧ win0_2.index t (0 : Fin 2) = win0_3.index t (0 : Fin 2) + 0
    ∧ win0_2.index t (1 : Fin 2) = win0_3.index t (1 : Fin 2) + 0
    ∧ 0 ≤ win0_3.index t (0 : Fin 2) ∧ win0_3.index t (0 : Fin 2) ≤ 49
    ∧ 0 ≤ win0_3.index t (1 : Fin 2) ∧ win0_3.index t (1 : Fin 2) ≤ 0 :=
  (by decide +kernel : ∀ t : Fin grid0.N, _)

/-- Every block of rows is some point's. -/
theorem idx_onto : ∀ (q0 : Fin 50) (q1 : Fin 1), ∃ t : Fin cfg0.N, win0_3.index t = ![q0.val + 0, q1.val + 0] :=
  (by decide +kernel : ∀ (q0 : Fin 50) (q1 : Fin 1), ∃ t : Fin grid0.N, win0_3.index t = ![q0.val + 0, q1.val + 0])

/-- What point `t` writes back is block `t` of the mean of the three arrays as the region finds them. -/
theorem flushed_eq (c : Dev nD) (t : Fin cfg0.N) :
    (dat0 V c).flushed 3 t = ((cfg0.win 3).blk t).view.read (Elt F) (mean3 (V c main_v144) (V c main_v223) (V c main_v302)) := by
  show (cfg0.win 3).cut (grid0.coords t) ((dat0 V c).after 3 t) = _
  rw [after0_3]
  unfold out0_3
  rw [View.canon_unit_zero zeros2]
  simp only [View.ld_unit_zero (S := S3000x32) zeros2]
  rw [payload_eq]
  obtain ⟨e0, e1, e2, e3, e4, e5, e6, e7, e8, e9⟩ := idx_facts t
  funext j
  show FloatOps.mulf (FloatOps.addf (FloatOps.addf (V c main_v144 (((cfg0.win 0).blk t).view.emb j)) (V c main_v223 (((cfg0.win 1).blk t).view.emb j))) (V c main_v302 (((cfg0.win 2).blk t).view.emb j))) (Named.named κ "inv_3" (φ := .f32) 0x3EAAAAAB#32)
     = FloatOps.mulf (FloatOps.addf (FloatOps.addf (V c main_v144 (((cfg0.win 3).blk t).view.emb j)) (V c main_v223 (((cfg0.win 3).blk t).view.emb j))) (V c main_v302 (((cfg0.win 3).blk t).view.emb j))) (Named.named κ "inv_3" (φ := .f32) 0x3EAAAAAB#32)
  have h0 : ((cfg0.win 0).blk t).view.emb j = ((cfg0.win 3).blk t).view.emb j := by
    funext a; apply Fin.ext
    match a with
    | ⟨0, _⟩ => show win0_0.index t (0 : Fin 2) * 3000 + 1 * (j 0).val = win0_3.index t (0 : Fin 2) * 3000 + 1 * (j 0).val; omega
    | ⟨1, _⟩ => show win0_0.index t (1 : Fin 2) * 32 + 1 * (j 1).val = win0_3.index t (1 : Fin 2) * 32 + 1 * (j 1).val; omega
  have h1 : ((cfg0.win 1).blk t).view.emb j = ((cfg0.win 3).blk t).view.emb j := by
    funext a; apply Fin.ext
    match a with
    | ⟨0, _⟩ => show win0_1.index t (0 : Fin 2) * 3000 + 1 * (j 0).val = win0_3.index t (0 : Fin 2) * 3000 + 1 * (j 0).val; omega
    | ⟨1, _⟩ => show win0_1.index t (1 : Fin 2) * 32 + 1 * (j 1).val = win0_3.index t (1 : Fin 2) * 32 + 1 * (j 1).val; omega
  have h2 : ((cfg0.win 2).blk t).view.emb j = ((cfg0.win 3).blk t).view.emb j := by
    funext a; apply Fin.ext
    match a with
    | ⟨0, _⟩ => show win0_2.index t (0 : Fin 2) * 3000 + 1 * (j 0).val = win0_3.index t (0 : Fin 2) * 3000 + 1 * (j 0).val; omega
    | ⟨1, _⟩ => show win0_2.index t (1 : Fin 2) * 32 + 1 * (j 1).val = win0_3.index t (1 : Fin 2) * 32 + 1 * (j 1).val; omega
  rw [h0, h1, h2]

/-- An index of the output array lies in point `t`'s block iff each coordinate lies in the block's range. -/
theorem mem_blk (t : Fin cfg0.N) (i : S150000x32.Idx) :
    i ∈ ((cfg0.win 3).blk t).view.set ↔ ∀ a : Fin 2, win0_3.index t a * S3000x32.size a ≤ (i a).val ∧ (i a).val < win0_3.index t a * S3000x32.size a + S3000x32.size a := by
  show i ∈ ((View.whole main_v303).slice (win0_3.rect t)).set ↔ _
  rw [View.set_slice_whole, Rect.mem_set_unit]
  exact Iff.rfl

/-- The blocks tile the array: row r lies in the block of point r / 3000. -/
theorem cover (i : S150000x32.Idx) :
    ∃ t : Fin cfg0.N, (cfg0.win 3).flush t = true ∧ i ∈ ((cfg0.win 3).blk t).view.set := by
  have hi0 : (i 0).val < 150000 := (i 0).isLt
  have hi1 : (i 1).val < 32 := (i 1).isLt
  obtain ⟨t, ht⟩ := idx_onto ⟨(i 0).val / 3000, by omega⟩ ⟨0, by omega⟩
  have q0 : win0_3.index t (0 : Fin 2) = (i 0).val / 3000 + 0 := congrFun ht 0
  have q1 : win0_3.index t (1 : Fin 2) = 0 + 0 := congrFun ht 1
  refine ⟨t, flush0_3 t, ?_⟩
  rw [mem_blk]
  intro a
  match a with
  | ⟨0, _⟩ => show win0_3.index t (0 : Fin 2) * 3000 ≤ (i 0).val ∧ (i 0).val < win0_3.index t (0 : Fin 2) * 3000 + 3000; omega
  | ⟨1, _⟩ => show win0_3.index t (1 : Fin 2) * 32 ≤ (i 1).val ∧ (i 1).val < win0_3.index t (1 : Fin 2) * 32 + 32; omega

/-- The output array after the region: the mean of the three input arrays as the region finds them. -/
theorem final (c : Dev nD) :
    (dat0 V c).arrAt 3 cfg0.N = mean3 (V c main_v144) (V c main_v223) (V c main_v302) :=
  (dat0 V c).arrAt_eq_of_cover 3 _ (fun t _ => flushed_eq V c t) (cover)

end Cert.KernelIdeal.MeanValue

end
-- ==== Proof.LibRowReduce.lean ====
/-
  Reductions along the rows of a matrix, and two layout operations around them, read at an index written by
  coordinates, at the ideal values and over any extents.

  * Reducing an [a, b] matrix over its second axis leaves one value per row. Putting column k back into the reduced
    index p gives (p, k); so a sum over that axis is the sum of the row's entries, and a maximum over it is the fold of
    max over the row's entries starting from the accumulator's value. The fold is kept as a fold: max is commutative and
    associative, so the order in which either program visits the row does not matter, and nothing here evaluates it.
    The same reading holds for the host's one-operand reduce with a max body.
  * Three one-column matrices joined side by side give an [a, 3] matrix whose column k is the k-th of them.
  * An [a, b, 1, 1] array viewed as an [a, b] matrix reads, at (i, j), the operand at (i, j, 0, 0).
-/
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

/-- The reduced index `p` with column `k` put back on the second axis is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum over the second axis of an [a, b] matrix, at row `p`: the sum of the row's entries. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) := by
  refine (Ideal.multiReduction_add_single src acc h hφ hacc (ix1 p)).trans ?_
  exact Finset.sum_congr rfl fun k _ => congrArg src (lift_row h p k)

/-- A lane maximum over the second axis of an [a, b] matrix, at row `p`: the fold of max over the row's entries from the
    accumulator's value. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k => src (ix2 p k)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits φ acc) f (Finset.univ : Finset (Fin b))) hf

/-- The host's reduce with a max body over the second axis of an [a, b] matrix, at row `p`: the same fold, from the
    initial value's one element. -/
theorem hostRowMax_apply {a b : ℕ} {φ : FTy} {u : Shape} (x : FVec Ideal (⟨2, ![a, b]⟩ : Shape) φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (p : Fin a) :
    Host.reduce FloatOps.maximumf x init h' hu (ix1 p)
      = (Finset.univ : Finset (Fin b)).fold max (init (Shape.Idx.first hu)) (fun k => x (ix2 p k)) := by
  refine (Host.reduce_eq_fold_single FloatOps.maximumf x init h' h hu (ix1 p)).trans ?_
  have hf : (x ∘ h.lift (ix1 p)) = fun k : Fin b => x (ix2 p k) := funext fun k => congrArg x (lift_row h p k)
  exact congrArg (fun f => Finset.fold max (init (Shape.Idx.first hu)) f (Finset.univ : Finset (Fin b))) hf

variable {α : Type}

/-- Three columns joined side by side: column `k` of the result is the `k`-th column. -/
theorem columnTriple_apply {a : ℕ} (x y z : (⟨2, ![a, 1]⟩ : Shape).Idx → α)
    (h : Shape.Concatenates [(⟨2, ![a, 1]⟩ : Shape), ⟨2, ![a, 1]⟩, ⟨2, ![a, 1]⟩] ⟨2, ![a, 3]⟩ (1 : Fin 2)) (p : Fin a) (k : Fin 3) :
    concatenate ⟨2, ![a, 3]⟩ (1 : Fin 2) [⟨⟨2, ![a, 1]⟩, x⟩, ⟨⟨2, ![a, 1]⟩, y⟩, ⟨⟨2, ![a, 1]⟩, z⟩] h (ix2 p k)
      = (![x, y, z] k) (ix2 p (0 : Fin 1)) :=
  concatenate_ofFn_unit_apply (t := ⟨2, ![a, 3]⟩) (s₁ := ⟨2, ![a, 1]⟩) (1 : Fin 2) (N := 3) (fun n => ![x, y, z] n) h rfl rfl
    (ix2 p k) k rfl (ix2 p (0 : Fin 1))
    (fun c hc => match c, hc with | ⟨0, _⟩, _ => rfl | ⟨1, _⟩, hc => absurd rfl hc)

/-- An `[a, b, 1, 1]` array cast to `[a, b]` reads, at `(i, j)`, the operand at `(i, j, 0, 0)`. -/
theorem shapeCast_ab11_ab_apply {a b : ℕ} (x : (⟨4, ![a, b, 1, 1]⟩ : Shape).Idx → α)
    (h : (⟨4, ![a, b, 1, 1]⟩ : Shape).ShapeCasts ⟨2, ![a, b]⟩) (i : Fin a) (j : Fin b) :
    shapeCast ⟨2, ![a, b]⟩ x h (ix2 i j) = x (ix4 i j (0 : Fin 1) (0 : Fin 1)) :=
  shapeCast_apply x h _ _ (by
    rw [Shape.rowMajor_val_four, Shape.rowMajor_val_two]
    show ((i.val * b + j.val) * 1 + 0) * 1 + 0 = i.val * b + j.val
    omega)

end Cert.LibRowReduce

end
-- ==== Proof.LibKeepdims.lean ====
/-
  Layout operations of a row-wise reduction kept as a column, read at an index written by coordinates:
  a block with two leading unit axes viewed as a matrix and back, a vector viewed as a one-column matrix,
  and a one-column matrix broadcast along its rows.  Each is the general read-at-an-index lemma of the
  layout operation with the operand's index already chosen.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and broadcast along the rows reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibKeepdims

end
-- ==== Proof.DotBlocks.lean ====
/-
  The row-dot region as one function of its two input arrays, at the ideal values.

  The region's grid has 8 points; at point t the two input windows hold rows 1024·t … 1024·t + 1023 of their
  [8192, 64] arrays and the output window the same rows of the [8192, 1] result column.  The body multiplies the
  two blocks entry by entry, sums each row over its 64 columns into a zero accumulator, and stores the sums as a
  column.  At the ideal values a row's sum into zero is the plain sum of the row's 64 products, so what point t
  writes back is block t of  (u, v) ↦ (r ↦ Σ_k u(r,k) · v(r,k)),  the 8 blocks tile the column, and the column
  ends holding that function.
-/
import proofs.«143580_j54803782697496_1_alg».proof.Proof.Gen.KernelIdeal.Frame
import proofs.«143580_j54803782697496_1_alg».proof.Proof.LibRowReduce
import proofs.«143580_j54803782697496_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.DotValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- Row r of the result column: the sum over the 64 columns of the products of the two arrays' entries of row r. -/
def rowDot (u v : FVec Ideal S8192x64 .f32) : FVec Ideal S8192x1 .f32 :=
  fun i => ∑ k : Fin 64, u (ix2 (i 0) k) * v (ix2 (i 0) k)

/-- The body's stored column at row p: the sum of the 64 products of the two loaded blocks' row p. -/
theorem payload_row (x0 x1 : Vec Ideal S1024x64 .f32) (p : Fin 1024) (z : Fin 1) :
    k1_pay1 (F := Ideal) x0 x1 (ix2 p z) = ∑ k : Fin 64, x0 (ix2 p k) * x1 (ix2 p k) := by
  unfold k1_pay1
  dsimp only
  refine (Cert.LibKeepdims.shapeCast_a_a1_apply _ _ p z).trans ?_
  refine (Cert.LibRowReduce.rowSum_apply _ _ _ _ _ p).trans ?_
  simp only [shapeCast_self]
  rfl

/-- Over the grid: both input windows' block indices are the output window's, 0 … 7 on the rows and 0 on the columns. -/
theorem idx_facts : ∀ t : Fin cfg1.N, win1_0.index t (0 : Fin 2) = win1_2.index t (0 : Fin 2) + 0
    ∧ win1_0.index t (1 : Fin 2) = 0
    ∧ win1_1.index t (0 : Fin 2) = win1_2.index t (0 : Fin 2) + 0
    ∧ win1_1.index t (1 : Fin 2) = 0
    ∧ 0 ≤ win1_2.index t (0 : Fin 2) ∧ win1_2.index t (0 : Fin 2) ≤ 7
    ∧ win1_2.index t (1 : Fin 2) = 0 :=
  (by decide +kernel : ∀ t : Fin grid1.N, _)

/-- Every block of rows is some point's. -/
theorem idx_onto : ∀ (q0 : Fin 8) (q1 : Fin 1), ∃ t : Fin cfg1.N, win1_2.index t = ![q0.val + 0, q1.val + 0] :=
  (by decide +kernel : ∀ (q0 : Fin 8) (q1 : Fin 1), ∃ t : Fin grid1.N, win1_2.index t = ![q0.val + 0, q1.val + 0])

/-- What point `t` writes back is block `t` of the row dot products of the two arrays as the region finds them. -/
theorem flushed_eq (c : Dev nD) (t : Fin cfg1.N) :
    (dat1 V c).flushed 2 t = ((cfg1.win 2).blk t).view.read (Elt Ideal) (rowDot (V c main_v314) (V c main_v321)) := by
  show (cfg1.win 2).cut (grid1.coords t) ((dat1 V c).after 2 t) = _
  rw [after1_2]
  unfold out1_2
  rw [View.canon_unit_zero zeros2]
  simp only [View.ld_unit_zero (S := S1024x64) zeros2]
  obtain ⟨e0, e1, e2, e3, e4, e5, e6⟩ := idx_facts t
  funext j
  obtain ⟨p, z, rfl⟩ : ∃ (p : Fin 1024) (z : Fin 1), j = ix2 p z := ⟨j 0, j 1, eq_ix2 j⟩
  show k1_pay1 (F := Ideal) (iblk1 V c 0 t) (iblk1 V c 1 t) (ix2 p z)
      = rowDot (V c main_v314) (V c main_v321) (((cfg1.win 2).blk t).view.emb (ix2 p z))
  refine (payload_row _ _ p z).trans ?_
  unfold rowDot
  refine Finset.sum_congr rfl fun k _ => ?_
  have h0 : ((cfg1.win 0).blk t).view.emb (ix2 p k) = ix2 ((((cfg1.win 2).blk t).view.emb (ix2 p z)) 0) k := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 64 + 1 * k.val = k.val; omega
  have h1 : ((cfg1.win 1).blk t).view.emb (ix2 p k) = ix2 ((((cfg1.win 2).blk t).view.emb (ix2 p z)) 0) k := by
    funext a; apply Fin.ext
    match a with
    | ⟨0, _⟩ => show win1_1.index t (0 : Fin 2) * 1024 + 1 * p.val = win1_2.index t (0 : Fin 2) * 1024 + 1 * p.val; omega
    | ⟨1, _⟩ => show win1_1.index t (1 : Fin 2) * 64 + 1 * k.val = k.val; omega
  exact congrArg₂ (fun x y : EReal => x * y) (congrArg (V c main_v314) h0) (congrArg (V c main_v321) h1)

/-- An index of the result column lies in point `t`'s block iff each coordinate lies in the block's range. -/
theorem mem_blk (t : Fin cfg1.N) (i : S8192x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v322).slice (win1_2.rect t)).set ↔ _
  rw [View.set_slice_whole, Rect.mem_set_unit]
  exact Iff.rfl

/-- The blocks tile the column: row r lies in the block of point r / 1024. -/
theorem cover (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  obtain ⟨t, ht⟩ := idx_onto ⟨(i 0).val / 1024, by omega⟩ ⟨0, by omega⟩
  have q0 : win1_2.index t (0 : Fin 2) = (i 0).val / 1024 + 0 := congrFun ht 0
  have q1 : win1_2.index t (1 : Fin 2) = 0 + 0 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1 ≤ (i 1).val ∧ (i 1).val < win1_2.index t (1 : Fin 2) * 1 + 1; omega

/-- The result column after the region: the row dot products of the two input arrays as the region finds them. -/
theorem final (c : Dev nD) :
    (dat1 V c).arrAt 2 cfg1.N = rowDot (V c main_v314) (V c main_v321) :=
  (dat1 V c).arrAt_eq_of_cover 2 _ (fun t _ => flushed_eq V c t) (cover)

end Cert.KernelIdeal.DotValue

end
-- ==== Proof.KernelValue.lean ====
/-
  The idealized kernel's result as a function of the buffers at the first region's entry.

  After the domain-mean region the mean array M holds (a + b + d) · inv_3 of the three per-domain embeddings.
  The second stretch of host operations cuts M into its user rows (0 … 59999) and item rows (60000 … 149999), joins
  each side by side with the intra-domain embedding's rows, and gathers the 8192 query rows of each by the query
  indices (a negative index first has the table's length added).  The row-dot region leaves the column of row dot
  products of the two gathered [8192, 64] arrays, and the closing reshape reads that column as a vector.
-/
import proofs.«143580_j54803782697496_1_alg».proof.Proof.MeanBlocks
import proofs.«143580_j54803782697496_1_alg».proof.Proof.DotBlocks

set_option maxRecDepth 16384

noncomputable section

namespace Cert.KernelIdeal.Result

open Cert.KernelIdeal Cert.KernelIdeal.Gen
open Idealize.ShloMosaic Idealize.ShloMosaic.TcCoe Idealize.ShloMosaic.StableHlo Idealize.SL.Sem

section Defs
variable {F : FTy → Type} [FloatOps F] [Named F]

/-- The gathered user rows: the mean's user rows beside the intra-domain user rows, at the wrapped query indices. -/
def users (M : FVec F S150000x32 .f32) (U : FVec F S60000x32 .f32) (a : IVec S8192 32) : FVec F S8192x64 .f32 :=
  Host.gather gather_S60000x64_S8192x1_S8192x64_1_0_n_n_0_1_164
    (concatenate S60000x64 1 [⟨S60000x32, extractStridedSlice S60000x32 ![0, 0] M slices_S150000x32_S60000x32_0_0⟩, ⟨S60000x32, U⟩] concatenates_S60000x32_S60000x32_S60000x64_d1)
    (broadcastInDim S8192x1 ![0] bcast_S8192_S8192x1_0
      (select (cmpi .slt a (broadcastInDim S8192 ![] bcast_S_S8192 (constantI S_ 32 0#32)))
        (addi a (broadcastInDim S8192 ![] bcast_S_S8192 (constantI S_ 32 60000#32))) a))

/-- The gathered item rows: the mean's item rows beside the intra-domain item rows, at the wrapped query indices. -/
def items (M : FVec F S150000x32 .f32) (U : FVec F S90000x32 .f32) (a : IVec S8192 32) : FVec F S8192x64 .f32 :=
  Host.gather gather_S90000x64_S8192x1_S8192x64_1_0_n_n_0_1_164
    (concatenate S90000x64 1 [⟨S90000x32, extractStridedSlice S90000x32 ![60000, 0] M slices_S150000x32_S90000x32_60000_0⟩, ⟨S90000x32, U⟩] concatenates_S90000x32_S90000x32_S90000x64_d1)
    (broadcastInDim S8192x1 ![0] bcast_S8192_S8192x1_0
      (select (cmpi .slt a (broadcastInDim S8192 ![] bcast_S_S8192 (constantI S_ 32 0#32)))
        (addi a (broadcastInDim S8192 ![] bcast_S_S8192 (constantI S_ 32 90000#32))) a))
end Defs

variable (m : (ℓ : Loc nD τ sig) → Buf (Elt Ideal) ℓ) (ρ : Dev nD → PrngReg)

/-- The mean array at the first region's exit. -/
theorem mean_out (c : Dev nD) :
    W2 m ρ c (Proc.devRef .tc main_v303)
      = MeanValue.mean3 (F := Ideal) (W1 m ρ c (Proc.devRef .tc main_v144)) (W1 m ρ c (Proc.devRef .tc main_v223))
          (W1 m ρ c (Proc.devRef .tc main_v302)) :=
  (W2_arr m ρ c 3).trans (MeanValue.final (V1 m ρ) c)

set_option maxHeartbeats 4000000 in
/-- The gathered user rows at the second region's entry. -/
theorem users_in (c : Dev nD) :
    W3 m ρ c (Proc.devRef .tc main_v314)
      = users (F := Ideal) (W2 m ρ c (Proc.devRef .tc main_v303)) (W2 m ρ c (Proc.devRef .tc main_v63)) (W2 m ρ c (Proc.devRef .tc main_arg8)) := by
  show after hostOps1 (W2 m ρ c) (Proc.devRef .tc main_v314) = _
  simp only [hostOps1]
  after_results_simp
  rfl

set_option maxHeartbeats 4000000 in
/-- The gathered item rows at the second region's entry. -/
theorem items_in (c : Dev nD) :
    W3 m ρ c (Proc.devRef .tc main_v321)
      = items (F := Ideal) (W2 m ρ c (Proc.devRef .tc main_v303)) (W2 m ρ c (Proc.devRef .tc main_v64)) (W2 m ρ c (Proc.devRef .tc main_arg9)) := by
  show after hostOps1 (W2 m ρ c) (Proc.devRef .tc main_v321) = _
  simp only [hostOps1]
  after_results_simp
  rfl

/-- The result column at the second region's exit. -/
theorem dot_out (c : Dev nD) :
    W4 m ρ c (Proc.devRef .tc main_v322)
      = DotValue.rowDot (W3 m ρ c (Proc.devRef .tc main_v314)) (W3 m ρ c (Proc.devRef .tc main_v321)) :=
  (W4_arr m ρ c 2).trans (DotValue.final (V3 m ρ) c)

set_option maxHeartbeats 4000000 in
/-- The result vector is the result column reshaped. -/
theorem result_eq (c : Dev nD) :
    W5 m ρ c (Proc.devRef .tc main_v323)
      = shapeCast S8192 (W4 m ρ c (Proc.devRef .tc main_v322)) shapeCasts_S8192x1_S8192 := by
  show after hostOps2 (W4 m ρ c) (Proc.devRef .tc main_v323) = _
  simp only [hostOps2]
  after_results_simp
  rfl

/-- The kernel's result: the row dot products of the gathered user and item rows, with the mean array and the
    other buffers as the first region finds them. -/
theorem result (c : Dev nD) :
    W5 m ρ c (Proc.devRef .tc main_v323)
      = shapeCast S8192
          (DotValue.rowDot
            (users (F := Ideal) (MeanValue.mean3 (F := Ideal) (W1 m ρ c (Proc.devRef .tc main_v144)) (W1 m ρ c (Proc.devRef .tc main_v223))
                (W1 m ρ c (Proc.devRef .tc main_v302)))
              (W1 m ρ c (Proc.devRef .tc main_v63)) (W1 m ρ c (Proc.devRef .tc main_arg8)))
            (items (F := Ideal) (MeanValue.mean3 (F := Ideal) (W1 m ρ c (Proc.devRef .tc main_v144)) (W1 m ρ c (Proc.devRef .tc main_v223))
                (W1 m ρ c (Proc.devRef .tc main_v302)))
              (W1 m ρ c (Proc.devRef .tc main_v64)) (W1 m ρ c (Proc.devRef .tc main_arg9))))
          shapeCasts_S8192x1_S8192 := by
  rw [result_eq, dot_out, users_in, items_in, mean_out,
    W2_of_ne m ρ c main_v63 (by decide), W2_of_ne m ρ c main_v64 (by decide),
    W2_of_ne m ρ c main_arg8 (by decide), W2_of_ne m ρ c main_arg9 (by decide)]

end Cert.KernelIdeal.Result

end
-- ==== Proof.RefTail.lean ====
/-
  The idealized reference's result as a function of the buffers after its first 383 operations.

  Those 383 operations are the ones the kernel's @main shares.  The rest of the reference's @main stacks the three
  per-domain embeddings along a new middle axis, sums over it and divides by 3 (the mean M'), cuts M' into user and
  item rows, joins each side by side with the intra-domain embedding's rows, gathers the 8192 query rows of each,
  multiplies the two gathered arrays entry by entry and sums every row from 0.
-/
import proofs.«143580_j54803782697496_1_alg».proof.Proof.Gen.ReferenceIdeal.Run

set_option maxRecDepth 16384

noncomputable section

namespace Cert.ReferenceIdeal.Tail

open Cert.ReferenceIdeal Cert.ReferenceIdeal.Gen Cert.ReferenceIdeal.Value
open Idealize.ShloMosaic Idealize.ShloMosaic.TcCoe Idealize.ShloMosaic.StableHlo

variable {F : FTy → Type} [FloatOps F]

/-- The mean of three [150000, 32] arrays as the reference spells it: stacked along a new middle axis, summed over it
    from 0, divided by 3. -/
def stackedMean (A B D : FVec F S150000x32 .f32) : FVec F S150000x32 .f32 :=
  Host.divf
    (Host.reduceAdd
      (fn_main_v306 (F := F)
        (broadcastInDim S150000x1x32 ![0, 2] bcast_S150000x32_S150000x1x32_0_2 A)
        (broadcastInDim S150000x1x32 ![0, 2] bcast_S150000x32_S150000x1x32_0_2 B)
        (broadcastInDim S150000x1x32 ![0, 2] bcast_S150000x32_S150000x1x32_0_2 D))
      (constant S_ .f32 0x00000000#32) reducesTo_S150000x3x32_S150000x32_d1 h_S_)
    (broadcastInDim S150000x32 ![] bcast_S_S150000x32 (constant S_ .f32 0x40400000#32))

/-- The gathered user rows: the mean's user rows beside the intra-domain user rows, at the wrapped query indices. -/
def users (M : FVec F S150000x32 .f32) (U : FVec F S60000x32 .f32) (a : IVec S8192 32) : FVec F S8192x64 .f32 :=
  Host.gather gather_S60000x64_S8192x1_S8192x64_1_0_n_n_0_1_164
    (fn_main_v312 (F := F) (extractStridedSlice S60000x32 ![0, 0] M slices_S150000x32_S60000x32_0_0) U)
    (broadcastInDim S8192x1 ![0] bcast_S8192_S8192x1_0
      (select (cmpi .slt a (broadcastInDim S8192 ![] bcast_S_S8192 (constantI S_ 32 0#32)))
        (addi a (broadcastInDim S8192 ![] bcast_S_S8192 (constantI S_ 32 60000#32))) a))

/-- The gathered item rows: the mean's item rows beside the intra-domain item rows, at the wrapped query indices. -/
def items (M : FVec F S150000x32 .f32) (U : FVec F S90000x32 .f32) (a : IVec S8192 32) : FVec F S8192x64 .f32 :=
  Host.gather gather_S90000x64_S8192x1_S8192x64_1_0_n_n_0_1_164
    (fn_main_v313 (F := F) (extractStridedSlice S90000x32 ![60000, 0] M slices_S150000x32_S90000x32_60000_0) U)
    (broadcastInDim S8192x1 ![0] bcast_S8192_S8192x1_0
      (select (cmpi .slt a (broadcastInDim S8192 ![] bcast_S_S8192 (constantI S_ 32 0#32)))
        (addi a (broadcastInDim S8192 ![] bcast_S_S8192 (constantI S_ 32 90000#32))) a))

set_option maxHeartbeats 8000000 in
/-- The reference's result from the contents `V` after its first 383 operations. -/
theorem tail (V : Valuation τ sig (Elt F)) :
    after (ops_part6.drop 23) V (Proc.devRef .tc main_v329)
      = Host.reduceAdd
          (mulf
            (users (stackedMean (V (Proc.devRef .tc main_v144)) (V (Proc.devRef .tc main_v223)) (V (Proc.devRef .tc main_v302)))
              (V (Proc.devRef .tc main_v63)) (V (Proc.devRef .tc main_arg8)))
            (items (stackedMean (V (Proc.devRef .tc main_v144)) (V (Proc.devRef .tc main_v223)) (V (Proc.devRef .tc main_v302)))
              (V (Proc.devRef .tc main_v64)) (V (Proc.devRef .tc main_arg9))))
          (constant S_ .f32 0x00000000#32) reducesTo_S8192x64_S8192_d1 h_S_ := by
  simp only [ops_part6, List.drop_succ_cons, List.drop_zero]
  after_results_simp
  try dsimp only [Matrix.cons_val]
  try after_results_simp
  rfl

end Cert.ReferenceIdeal.Tail

end
-- ==== Proof.LibMidAxis.lean ====
/-
  Layout operations around the MIDDLE axis of a rank-3 array, read at an index written by coordinates: the first two
  axes flattened into one and split again, a matrix kept as a rank-3 array with a unit middle axis, that unit axis (or
  two leading unit axes) broadcast back, and a sum over the middle axis.  Each is the general read-at-an-index lemma of
  the layout operation with the operand's index already chosen.
-/
import Idealize.ShloMosaic.Lib.Pipeline.Value
import Idealize.ShloMosaic.Lib.ValueIdx
import Idealize.ShloMosaic.PureOps.Ideal.Laws

noncomputable section

namespace Cert.LibMidAxis

open Idealize.ShloMosaic Idealize.ShloMosaic.ValueIdx

variable {α : Type}

/-- An `[a, b, c]` array flattened to `[n, c]` reads, at `(q, k)` with `q = i * b + p`, the operand at `(i, p, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (p : Fin b) (k : Fin c) (q : Fin n)
    (hq : q.val = i.val * b + p.val) : shapeCast ⟨2, ![n, c]⟩ x h (ix2 q k) = x (ix3 i p k) :=
  shapeCast_apply x h _ _ (by
    rw [Shape.rowMajor_val_three, Shape.rowMajor_val_two]
    show (i.val * b + p.val) * c + k.val = q.val * c + k.val
    rw [hq])

/-- An `[n, c]` array split to `[a, b, c]` reads, at `(i, p, k)`, the operand at `(q, k)` with `q = i * b + p`. -/
theorem shapeCast_nc_abc_apply {a b c n : ℕ} (x : (⟨2, ![n, c]⟩ : Shape).Idx → α)
    (h : (⟨2, ![n, c]⟩ : Shape).ShapeCasts ⟨3, ![a, b, c]⟩) (i : Fin a) (p : Fin b) (k : Fin c) (q : Fin n)
    (hq : q.val = i.val * b + p.val) : shapeCast ⟨3, ![a, b, c]⟩ x h (ix3 i p k) = x (ix2 q k) :=
  shapeCast_apply x h _ _ (by
    rw [Shape.rowMajor_val_two, Shape.rowMajor_val_three]
    show q.val * c + k.val = (i.val * b + p.val) * c + k.val
    rw [hq])

/-- An `[a, c]` array kept as `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array broadcast to `[a, b, c]` reads, at `(i, p, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (p : Fin b) (k : Fin c) :
    broadcastTo ⟨3, ![a, b, c]⟩ v h (ix3 i p k) = v (ix3 i (0 : Fin 1) k) := by
  refine broadcastTo_apply v h (ix3 i p k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` array broadcast to `[a, b, c]` reads, at `(i, p, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (p : Fin b) (k : Fin c) :
    broadcastTo ⟨3, ![a, b, c]⟩ v h (ix3 i p k) = v (ix3 (0 : Fin 1) (0 : Fin 1) k) := by
  refine broadcastTo_apply v h (ix3 i p k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The index of `[a, b, c]` over `(i, k)` of `[a, c]` with `p` inserted on the middle axis is `(i, p, k)`. -/
theorem lift_mid {a b c : ℕ} (h : (⟨3, ![a, b, c]⟩ : Shape).Reduces [1] ⟨2, ![a, c]⟩) (i : Fin a) (k : Fin c) (p : Fin b) :
    h.lift (ix2 i k) p = ix3 i p k := by
  funext ax
  apply Fin.ext
  match ax with
  | ⟨0, _⟩ => rfl
  | ⟨1, _⟩ => rfl
  | ⟨2, _⟩ => rfl

/-- A lane sum over the middle axis, at the ideal values and into the zero word, is the sum over that axis's coordinate. -/
theorem multiReduction_add_mid {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ p : Fin b, src (ix3 i p k) :=
  (Ideal.multiReduction_add_single src _ h hφ hacc (ix2 i k)).trans
    (Finset.sum_congr rfl fun p _ => congrArg src (lift_mid h i k p))

/-- The host's sum over the middle axis, at the ideal values: the initial value plus the sum over that axis's coordinate. -/
theorem hostReduceAdd_mid {a b c : ℕ} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ p : Fin b, x (ix3 i p k) :=
  (Ideal.hostReduceAdd_single h' h x init (ix2 i k)).trans
    (congrArg (init + ·) (Finset.sum_congr rfl fun p _ => congrArg x (lift_mid h i k p)))

end Cert.LibMidAxis

end
-- ==== Proof.LibStackMean.lean ====
/-
  Three matrices stacked along a new middle axis and summed over it, read at an index written by coordinates,
  over any extents: each [a, c] matrix is kept as an [a, 1, c] array (a broadcast_in_dim onto axes 0 and 2), the three
  are concatenated along axis 1 into an [a, 3, c] array, and the host's sum over axis 1, at the ideal values, is the
  initial value plus the three matrices' entries at the same place.  This is how a mean over a stacked axis is
  spelt before its division.
-/
import proofs.«143580_j54803782697496_1_alg».proof.Proof.LibMidAxis
import Idealize.ShloMosaic.Lib.Pipeline.Value
import Idealize.ShloMosaic.Lib.ValueIdx
import Idealize.ShloMosaic.PureOps.Ideal.Laws

noncomputable section

namespace Cert.LibStackMean

open Idealize.ShloMosaic Idealize.ShloMosaic.ValueIdx

variable {α : Type}

/-- An `[a, c]` matrix kept as `[a, 1, c]` by a broadcast onto axes 0 and 2 reads, at `(i, u, k)`, the matrix at `(i, k)`. -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (i : Fin a) (u : Fin 1) (k : Fin c) :
    broadcastInDim ⟨3, ![a, 1, c]⟩ ![0, 2] h x (ix3 i u k) = x (ix2 i k) := by
  refine broadcastInDim_apply ![0, 2] h x (ix3 i u k) (ix2 i k) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl

/-- Three `[a, 1, c]` arrays joined along the middle axis: layer `j` of the result is the `j`-th of them. -/
theorem stack3_apply {a c : ℕ} (x y z : (⟨3, ![a, 1, c]⟩ : Shape).Idx → α)
    (h : Shape.Concatenates [(⟨3, ![a, 1, c]⟩ : Shape), ⟨3, ![a, 1, c]⟩, ⟨3, ![a, 1, c]⟩] ⟨3, ![a, 3, c]⟩ (1 : Fin 3))
    (i : Fin a) (j : Fin 3) (k : Fin c) :
    concatenate ⟨3, ![a, 3, c]⟩ (1 : Fin 3) [⟨⟨3, ![a, 1, c]⟩, x⟩, ⟨⟨3, ![a, 1, c]⟩, y⟩, ⟨⟨3, ![a, 1, c]⟩, z⟩] h (ix3 i j k)
      = (![x, y, z] j) (ix3 i (0 : Fin 1) k) :=
  concatenate_ofFn_unit_apply (t := ⟨3, ![a, 3, c]⟩) (s₁ := ⟨3, ![a, 1, c]⟩) (1 : Fin 3) (N := 3) (fun n => ![x, y, z] n) h rfl rfl
    (ix3 i j k) j rfl (ix3 i (0 : Fin 1) k)
    (fun b hb => match b, hb with | ⟨0, _⟩, _ => rfl | ⟨1, _⟩, hb => absurd rfl hb | ⟨2, _⟩, _ => rfl)

/-- The host's sum over the stacked axis of three matrices kept as layers, at the ideal values: the initial value plus
    the three entries at the same place, in the order they were stacked. -/
theorem stackSum3_apply {a c : ℕ} (x y z : (⟨2, ![a, c]⟩ : Shape).Idx → EReal)
    (hb : (⟨2, ![a, c]⟩ : Shape).BroadcastsInDim ⟨3, ![a, 1, c]⟩ ![0, 2])
    (hc : Shape.Concatenates [(⟨3, ![a, 1, c]⟩ : Shape), ⟨3, ![a, 1, c]⟩, ⟨3, ![a, 1, c]⟩] ⟨3, ![a, 3, c]⟩ (1 : Fin 3))
    (h' : (⟨3, ![a, 3, c]⟩ : Shape).ReducesTo [1] ⟨2, ![a, c]⟩) (h : (⟨3, ![a, 3, c]⟩ : Shape).Reduces [1] ⟨2, ![a, c]⟩)
    (init : EReal) (i : Fin a) (k : Fin c) :
    Ideal.hostReduceAdd h'
        (concatenate ⟨3, ![a, 3, c]⟩ (1 : Fin 3)
          [⟨⟨3, ![a, 1, c]⟩, broadcastInDim ⟨3, ![a, 1, c]⟩ ![0, 2] hb x⟩, ⟨⟨3, ![a, 1, c]⟩, broadcastInDim ⟨3, ![a, 1, c]⟩ ![0, 2] hb y⟩,
            ⟨⟨3, ![a, 1, c]⟩, broadcastInDim ⟨3, ![a, 1, c]⟩ ![0, 2] hb z⟩] hc) init (ix2 i k)
      = init + (x (ix2 i k) + y (ix2 i k) + z (ix2 i k)) := by
  rw [Cert.LibMidAxis.hostReduceAdd_mid h' h, Fin.sum_univ_three]
  rw [stack3_apply _ _ _ hc i 0 k, stack3_apply _ _ _ hc i 1 k, stack3_apply _ _ _ hc i 2 k]
  show init + (broadcastInDim _ ![0, 2] hb x (ix3 i 0 k) + broadcastInDim _ ![0, 2] hb y (ix3 i 0 k)
      + broadcastInDim _ ![0, 2] hb z (ix3 i 0 k)) = _
  rw [broadcastInDim_ac_a1c_apply, broadcastInDim_ac_a1c_apply, broadcastInDim_ac_a1c_apply]

end Cert.LibStackMean

end
-- ==== Proof.MeanLaw.lean ====
/-
  The two spellings of the domain mean are one function on the extended reals.

  The reference stacks the three [150000, 32] embeddings along a new middle axis, sums over it from the initial
  value 0 and divides by the constant 3; the kernel adds the three and multiplies by the constant named inv_3, which
  at the ideal values is the rational 1/3.  Entry by entry the first is (0 + (a + b + d)) / 3 and the second
  (a + b + d) · (1/3).  Division of an extended real by the nonzero real 3 is multiplication by 1/3 — also at ±∞ —
  and 0 + x = x, so the two agree for all entries, finite or not.
-/
import proofs.«143580_j54803782697496_1_alg».proof.Proof.MeanBlocks
import proofs.«143580_j54803782697496_1_alg».proof.Proof.LibStackMean
import proofs.«143580_j54803782697496_1_alg».proof.Proof.RefTail
import Idealize.ShloMosaic.PureOps.IdealRules
import Idealize.ShloMosaic.Lib.IdealHost

set_option maxRecDepth 16384

noncomputable section

namespace Cert.MeanLaw

open Idealize.ShloMosaic Idealize.ShloMosaic.ValueIdx

/-- The word of 3.0 denotes the real 3. -/
theorem ofBits_three : Ideal.ofBits .f32 0x40400000#32 = ((3 : ℝ) : EReal) := by
  simp [Ideal.ofBits, Ideal.ieee, -EReal.coe_mul]; norm_num

/-- The kernel's named constant denotes the rational 1/3. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The reference's mean over the stacked axis is the kernel's mean of the three arrays. -/
theorem mean_eq (A B D : FVec Ideal Cert.ReferenceIdeal.S150000x32 .f32) :
    Cert.ReferenceIdeal.Tail.stackedMean (F := Ideal) A B D = Cert.KernelIdeal.MeanValue.mean3 (F := Ideal) A B D := by
  unfold Cert.ReferenceIdeal.Tail.stackedMean
  funext i
  obtain ⟨p, q, rfl⟩ : ∃ (p : Fin 150000) (q : Fin 32), i = ix2 p q := ⟨i 0, i 1, eq_ix2 i⟩
  show Ideal.div
      (Ideal.hostReduceAdd _
        (Cert.ReferenceIdeal.Value.fn_main_v306 (F := Ideal) _ _ _) (Ideal.ofBits .f32 0x00000000#32) (ix2 p q))
      (Ideal.ofBits .f32 0x40400000#32)
    = (A (ix2 p q) + B (ix2 p q) + D (ix2 p q)) * Named.named (F := Ideal) Cert.KernelIdeal.κ "inv_3" (φ := .f32) 0x3EAAAAAB#32
  unfold Cert.ReferenceIdeal.Value.fn_main_v306
  rw [Cert.LibStackMean.stackSum3_apply A B D _ _ _ (by decide) _ p q, inv_3, ofBits_three,
    Ideal.div_coe (by norm_num : (3 : ℝ) ≠ 0), Ideal.ofBits_zero_f32, zero_add]

end Cert.MeanLaw

end
-- ==== Proof.LibColumn.lean ====
/-
  A one-column matrix read back as a vector: the `[a, 1] → [a]` shape cast at an index written by its
  coordinate.  (The library reads the row form `[1, a] → [a]`; this is the column form, by the same
  row-major equation.)
-/
import Idealize.ShloMosaic.Lib.Pipeline.Value
import Idealize.ShloMosaic.Lib.ValueIdx

noncomputable section

namespace Cert.LibColumn

open Idealize.ShloMosaic Idealize.ShloMosaic.ValueIdx

variable {α : Type}

/-- A column `[a, 1]` cast to the vector `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumn

end
-- ==== Proof.DotLaw.lean ====
/-
  The two spellings of the final score are one function on the extended reals.

  The kernel's result column, read back as a vector, holds at row r the sum over the 64 columns of u(r,k) · v(r,k);
  the reference multiplies the two [8192, 64] arrays entry by entry and sums over axis 1 from the initial value 0,
  which at row r is 0 plus the same sum.  Nothing but 0 + x = x is used, so no entry needs to be finite.
-/
import proofs.«143580_j54803782697496_1_alg».proof.Proof.DotBlocks
import proofs.«143580_j54803782697496_1_alg».proof.Proof.LibColumn
import proofs.«143580_j54803782697496_1_alg».proof.Proof.LibRowReduce
import Idealize.ShloMosaic.Lib.IdealHost

set_option maxRecDepth 16384

noncomputable section

namespace Cert.DotLaw

open Idealize.ShloMosaic Idealize.ShloMosaic.ValueIdx Cert.KernelIdeal.DotValue

/-- The result column as a vector is the host's row sum of the entrywise product, from any initial value that is 0. -/
theorem rowDot_eq_hostSum {u : Shape} (X Y : FVec Ideal (⟨2, ![8192, 64]⟩ : Shape) .f32)
    (hsc : (⟨2, ![8192, 1]⟩ : Shape).ShapeCasts ⟨1, ![8192]⟩)
    (h' : (⟨2, ![8192, 64]⟩ : Shape).ReducesTo [1] ⟨1, ![8192]⟩) (hu : 0 < u.numel)
    (init : u.Idx → Ideal .f32) (hinit : init (Shape.Idx.first hu) = 0) :
    shapeCast ⟨1, ![8192]⟩ (rowDot X Y) hsc = Host.reduceAdd (mulf X Y) init h' hu := by
  have hred : (⟨2, ![8192, 64]⟩ : Shape).Reduces [1] ⟨1, ![8192]⟩ := by decide
  funext j
  obtain ⟨p, rfl⟩ : ∃ p : Fin 8192, j = ix1 p := ⟨j 0, eq_ix1 j⟩
  refine (Cert.LibColumn.shapeCast_a1_a_apply _ hsc p).trans ?_
  refine Eq.trans ?_ (Ideal.hostReduceAdd_single h' hred (mulf X Y) (init (Shape.Idx.first hu)) (ix1 p)).symm
  rw [hinit, zero_add]
  exact (Finset.sum_congr rfl fun k _ => congrArg (mulf X Y) (Cert.LibRowReduce.lift_row hred p k)).symm

end Cert.DotLaw

end
-- ==== Proof.Bridge.lean ====
/-
  The two programs' results are one vector.

  At the first region's entry the kernel, and after its first 383 operations the reference, hold equal arrays in the
  three per-domain embeddings a, b, d, in the two halves of the intra-domain embedding and in the query indices.  The
  kernel's mean array is (a + b + d) · inv_3 and the reference's the stacked mean; they are one array.  Both programs
  then cut, join and gather that array by the same operations, so the two gathered [8192, 64] arrays agree, and the
  kernel's row dot products read back as a vector are the reference's row sums of the entrywise product.
-/
import proofs.«143580_j54803782697496_1_alg».proof.Proof.HostStages
import proofs.«143580_j54803782697496_1_alg».proof.Proof.KernelValue
import proofs.«143580_j54803782697496_1_alg».proof.Proof.RefTail
import proofs.«143580_j54803782697496_1_alg».proof.Proof.MeanLaw
import proofs.«143580_j54803782697496_1_alg».proof.Proof.DotLaw

set_option maxRecDepth 16384

noncomputable section

namespace Cert.Bridge

open Idealize.ShloMosaic Idealize.ShloMosaic.StableHlo Cert.HostStages

/-- The gathered user rows are spelt by the same operations in both programs. -/
theorem users_eq (M : FVec Ideal Cert.KernelIdeal.S150000x32 .f32) (U : FVec Ideal Cert.KernelIdeal.S60000x32 .f32)
    (a : IVec Cert.KernelIdeal.S8192 32) :
    Cert.KernelIdeal.Result.users (F := Ideal) M U a = Cert.ReferenceIdeal.Tail.users (F := Ideal) M U a := rfl

/-- The gathered item rows are spelt by the same operations in both programs. -/
theorem items_eq (M : FVec Ideal Cert.KernelIdeal.S150000x32 .f32) (U : FVec Ideal Cert.KernelIdeal.S90000x32 .f32)
    (a : IVec Cert.KernelIdeal.S8192 32) :
    Cert.KernelIdeal.Result.items (F := Ideal) M U a = Cert.ReferenceIdeal.Tail.items (F := Ideal) M U a := rfl

/-- The kernel's result vector is the reference's, when the buffers at the first region's entry agree. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (V : Valuation Cert.ReferenceIdeal.τ Cert.ReferenceIdeal.sig (Elt Ideal))
    (hA : Agree6 (Cert.KernelIdeal.Gen.W1 m ρ c) V) :
    Cert.KernelIdeal.Gen.W5 m ρ c (Proc.devRef .tc Cert.KernelIdeal.main_v323)
      = after (Cert.ReferenceIdeal.Value.ops_part6.drop 23) V (Proc.devRef .tc Cert.ReferenceIdeal.main_v329) := by
  rw [Cert.KernelIdeal.Result.result, Cert.ReferenceIdeal.Tail.tail, ← hA.v144, ← hA.v223, ← hA.v302, ← hA.v63, ← hA.v64,
    ← hA.arg8, ← hA.arg9, Cert.MeanLaw.mean_eq, ← users_eq, ← items_eq]
  exact Cert.DotLaw.rowDot_eq_hostSum _ _ _ _ _ _ Ideal.ofBits_zero_f32

end Cert.Bridge

end
-- ==== Proof.lean ====
/-
  The proof of `Cert.Claim`: the kernel (as printed and idealized) and the idealized reference run, leave their
  argument arrays unchanged, the idealization names 0.3333333432674408 as 1/3, and the idealized kernel and the
  idealized reference end with equal results on the extended reals.

  Both programs compute four graph convolutions by the same host operations, statement for statement; they differ in
  two places.  The mean of the three per-domain embeddings is (a + b + d) · inv_3 in the kernel's first region and
  (0 + a + b + d) / 3 in the reference: one array, because dividing an extended real by 3 is multiplying it by 1/3 and
  0 + x = x.  The final score is a lane sum of 64 products into a zero accumulator in the kernel's second region,
  read back as a vector, and a host sum of the same products from 0 in the reference: one vector.  Neither law needs a
  finite entry, so the precondition is never opened.

  The frames of the two kernel programs are the generated ones; the reference's frame and run are its generated run
  module's; the kernel's run with its result named is Proof/KernelRun.lean; the shared host operations are compared
  window by window (Proof/HostWin0 … 6, chained in Proof/HostPre.lean); the two regions as whole-array functions are
  Proof/MeanBlocks.lean and Proof/DotBlocks.lean; the two laws are Proof/MeanLaw.lean and Proof/DotLaw.lean; and
  Proof/Bridge.lean joins the two results.
-/
import proofs.«143580_j54803782697496_1_alg».proof.Defs
import proofs.«143580_j54803782697496_1_alg».proof.Proof.Gen.Kernel
import proofs.«143580_j54803782697496_1_alg».proof.Proof.Gen.Kernel.Skeleton
import proofs.«143580_j54803782697496_1_alg».proof.Proof.Gen.Kernel.Launch
import proofs.«143580_j54803782697496_1_alg».proof.Proof.Gen.Kernel.Points
import proofs.«143580_j54803782697496_1_alg».proof.Proof.Gen.Kernel.Frame
import proofs.«143580_j54803782697496_1_alg».proof.Proof.Gen.KernelIdeal
import proofs.«143580_j54803782697496_1_alg».proof.Proof.Gen.KernelIdeal.Skeleton
import proofs.«143580_j54803782697496_1_alg».proof.Proof.Gen.KernelIdeal.Launch
import proofs.«143580_j54803782697496_1_alg».proof.Proof.Gen.KernelIdeal.Points
import proofs.«143580_j54803782697496_1_alg».proof.Proof.Gen.KernelIdeal.Frame
import proofs.«143580_j54803782697496_1_alg».proof.Proof.Gen.ReferenceIdeal
import proofs.«143580_j54803782697496_1_alg».proof.Proof.Gen.Pre_finite_inputs
import proofs.«143580_j54803782697496_1_alg».proof.Proof.Gen.ReferenceIdeal.Run
import proofs.«143580_j54803782697496_1_alg».proof.Proof.KernelRun
import proofs.«143580_j54803782697496_1_alg».proof.Proof.HostPre
import proofs.«143580_j54803782697496_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The ledger's one entry: the constant's table gives "inv_3" the value 1/3, and the printed constant is that value at
    the ideal instance. -/
theorem preserves : Cert.preserves_Kernel_KernelIdeal :=
  IdealRules.named_const.statement Cert.KernelIdeal.κ "inv_3" .f32 0x3EAAAAAB#32 ((1 / 3 : ℝ) : EReal) rfl

set_option maxHeartbeats 4000000 in
/-- Both idealized programs run; the kernel's result buffer ends at its last boundary's contents and the reference's
    at its operations' fold, and from agreeing arguments these are one vector. -/
theorem algebraic : Cert.algebraic_KernelIdeal_ReferenceIdeal := by
  intro m ρ m' ρ' _ hagree
  refine ⟨fun c => Cert.KernelIdeal.Gen.W5 m ρ c (Proc.devRef .tc Cert.KernelIdeal.main_v323),
    Cert.KernelIdeal.ValueRun.run_value m ρ, ?_⟩
  refine (θ_run Cert.ReferenceIdeal.defs _ _).mono (fun r h c => ⟨(h c Cert.ReferenceIdeal.main_v329).trans ?_,
      (h c Cert.ReferenceIdeal.main_arg0).trans (by simp only [Cert.ReferenceIdeal.Value.after_ops]; exact Cert.ReferenceIdeal.Value.val7_main_arg0 (launchContents m' c)),
      (h c Cert.ReferenceIdeal.main_arg1).trans (by simp only [Cert.ReferenceIdeal.Value.after_ops]; exact Cert.ReferenceIdeal.Value.val7_main_arg1 (launchContents m' c)),
      (h c Cert.ReferenceIdeal.main_arg2).trans (by simp only [Cert.ReferenceIdeal.Value.after_ops]; exact Cert.ReferenceIdeal.Value.val7_main_arg2 (launchContents m' c)),
      (h c Cert.ReferenceIdeal.main_arg3).trans (by simp only [Cert.ReferenceIdeal.Value.after_ops]; exact Cert.ReferenceIdeal.Value.val7_main_arg3 (launchContents m' c)),
      (h c Cert.ReferenceIdeal.main_arg4).trans (by simp only [Cert.ReferenceIdeal.Value.after_ops]; exact Cert.ReferenceIdeal.Value.val7_main_arg4 (launchContents m' c)),
      (h c Cert.ReferenceIdeal.main_arg5).trans (by simp only [Cert.ReferenceIdeal.Value.after_ops]; exact Cert.ReferenceIdeal.Value.val7_main_arg5 (launchContents m' c)),
      (h c Cert.ReferenceIdeal.main_arg6).trans (by simp only [Cert.ReferenceIdeal.Value.after_ops]; exact Cert.ReferenceIdeal.Value.val7_main_arg6 (launchContents m' c)),
      (h c Cert.ReferenceIdeal.main_arg7).trans (by simp only [Cert.ReferenceIdeal.Value.after_ops]; exact Cert.ReferenceIdeal.Value.val7_main_arg7 (launchContents m' c)),
      (h c Cert.ReferenceIdeal.main_arg8).trans (by simp only [Cert.ReferenceIdeal.Value.after_ops]; exact Cert.ReferenceIdeal.Value.val7_main_arg8 (launchContents m' c)),
      (h c Cert.ReferenceIdeal.main_arg9).trans (by simp only [Cert.ReferenceIdeal.Value.after_ops]; exact Cert.ReferenceIdeal.Value.val7_main_arg9 (launchContents m' c))⟩)
    (run_seq Cert.ReferenceIdeal.Value.scopedRefs_eq Cert.ReferenceIdeal.Value.scopedSems_eq Cert.ReferenceIdeal.defs
      Cert.ReferenceIdeal.main (fun _ => Cert.ReferenceIdeal.Value.ops) Cert.ReferenceIdeal.Value.main_eq
      (fun _ => Cert.ReferenceIdeal.Value.ops_sub) m' ρ')
  have hargs : Cert.HostStages.AgreeArgs (Cert.KernelIdeal.Gen.W0 m ρ c) (launchContents m' c) :=
    ⟨(hagree c).1.symm, (hagree c).2.1.symm, (hagree c).2.2.1.symm, (hagree c).2.2.2.1.symm, (hagree c).2.2.2.2.1.symm,
      (hagree c).2.2.2.2.2.1.symm, (hagree c).2.2.2.2.2.2.1.symm, (hagree c).2.2.2.2.2.2.2.1.symm,
      (hagree c).2.2.2.2.2.2.2.2.1.symm, (hagree c).2.2.2.2.2.2.2.2.2.symm⟩
  rw [Cert.HostPre.reference_after]
  exact (Cert.Bridge.result_eq m ρ c _ (Cert.HostPre.entry_agree hargs)).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    preserves, algebraic⟩

end Cert.Proof

end
